-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S3072 : Shape := ⟨1, ![3072]⟩
abbrev S1x3072 : Shape := ⟨2, ![1, 3072]⟩
abbrev S512x1024 : Shape := ⟨2, ![512, 1024]⟩
abbrev S512x3072 : Shape := ⟨2, ![512, 3072]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 38
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1x3072, .f32⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S2x2048x16x64, .bf16⟩
  | .hbm, ⟨21, _⟩ => ⟨S2x16x2048x64, .bf16⟩
  | .hbm, ⟨22, _⟩ => ⟨S32x2048x64, .bf16⟩
  | .hbm, ⟨23, _⟩ => ⟨S2x2048x16x64, .bf16⟩
  | .hbm, ⟨24, _⟩ => ⟨S2x16x2048x64, .bf16⟩
  | .hbm, ⟨25, _⟩ => ⟨S32x2048x64, .bf16⟩
  | .hbm, ⟨26, _⟩ => ⟨S2x2048x16x64, .bf16⟩
  | .hbm, ⟨27, _⟩ => ⟨S2x16x2048x64, .bf16⟩
  | .hbm, ⟨28, _⟩ => ⟨S32x2048x64, .bf16⟩
  | .hbm, ⟨29, _⟩ => ⟨S32x2048x64, .f32⟩
  | .hbm, ⟨30, _⟩ => ⟨S2x16x2048x64, .f32⟩
  | .hbm, ⟨31, _⟩ => ⟨S2x2048x16x64, .f32⟩
  | .hbm, ⟨32, _⟩ => ⟨S4096x1024, .f32⟩
  | .hbm, ⟨33, _⟩ => ⟨S1024x1024, .f32⟩
  | .hbm, ⟨34, _⟩ => ⟨S1024x1024, .bf16⟩
  | .hbm, ⟨35, _⟩ => ⟨S1x1024, .f32⟩
  | .hbm, ⟨36, _⟩ => ⟨S4096x1024, .f32⟩
  | .hbm, ⟨37, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x64, .bf16⟩
  | .local _ .vmem, ⟨11, _⟩ => ⟨S1x512x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S1x512x64, .f32⟩
  | .local _ .vmem, ⟨17, _⟩ => ⟨S1x512x64, .f32⟩
  | .local _ .vmem, ⟨18, _⟩ => ⟨S512x1024, .f32⟩
  | .local _ .vmem, ⟨19, _⟩ => ⟨S512x1024, .f32⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .f32 = 32 ∨ (Rect.block (s := S32x2048x64) S1x512x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x16x64, .f32⟩
  | .hbm, ⟨20, _⟩ => ⟨S2x16x2048x64, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x16x64, .f32⟩
  | .hbm, ⟨26, _⟩ => ⟨S2x16x2048x64, .f32⟩
  | .hbm, ⟨27, _⟩ => ⟨S2x16x2048x2048, .f32⟩
  | .hbm, ⟨28, _⟩ => ⟨S_, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x64, .f32⟩
  | .hbm, ⟨47, _⟩ => ⟨S2x2048x16x64, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BitsRegion0.lean ====
/-
  Region 0, the fused projection. At a grid point the body reads a 512-row block of the flattened input,
  the whole [1024, 3072] weight and the [1, 3072] bias row, forms block · weight + bias, and stores the three
  1024-lane thirds of that [512, 3072] value into the three output blocks.
  This module says what each output block's staging buffer holds after the body, as a function of the input blocks;
  runs the body on whole staging buffers; and packs the pipeline's proof data and its body obligation. Everything is
  stated at a parameter `V`, the buffer contents the region is entered with, and at any float instance.
-/
import proofs.«169357_j53094385713646_2_alg».proof.Proof.Gen.Kernel.Launch
import proofs.«169357_j53094385713646_2_alg».proof.Proof.Gen.Kernel.Skeleton
import proofs.«169357_j53094385713646_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds that window's block at every point, whether the pipeline
    fetched it there or kept it (its block index had not moved), for any proof data over the entry contents. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds that window's block at every point, whether the pipeline
    fetched it there or kept it (its block index had not moved), for any proof data over the entry contents. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds that window's block at every point, whether the pipeline
    fetched it there or kept it (its block index had not moved), for any proof data over the entry contents. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Output window 3's staging buffer after the body: its one store, which covers the whole block, of the body's
    value of the input blocks. -/
def out0_3 (x0 : Vec F S512x1024 .f32) (x1 : Vec F S1024x3072 .bf16) (x2 : Vec F S1x3072 .f32) : Vec F S512x1024 .bf16 :=
  View.canon [⟨(Rect.unit (s := S512x1024) ![0, 0] S512x1024.size inb_S512x1024_S512x1024_0_0), k0_pay2 (View.ld x0 (Rect.unit (s := S512x1024) ![0, 0] S512x1024.size inb_S512x1024_S512x1024_0_0)) (View.ld x1 (Rect.unit (s := S1024x3072) ![0, 0] S1024x3072.size inb_S1024x3072_S1024x3072_0_0)) (View.ld x2 (Rect.unit (s := S1x3072) ![0, 0] S1x3072.size inb_S1x3072_S1x3072_0_0))⟩]

theorem cover0_3 (p0 : Vec F S512x1024 .bf16) (y : S512x1024.Idx) :
    ∃ pc ∈ ([⟨(Rect.unit (s := S512x1024) ![0, 0] S512x1024.size inb_S512x1024_S512x1024_0_0), p0⟩] : List (View.Piece (Elt F) S512x1024 .bf16)), y ∈ pc.1.set :=
  View.cover_of_tiled [⟨(Rect.unit (s := S512x1024) ![0, 0] S512x1024.size inb_S512x1024_S512x1024_0_0), p0⟩] S512x1024.size (by rfl) y

/-- Output window 4's staging buffer after the body: its one store, which covers the whole block, of the body's
    value of the input blocks. -/
def out0_4 (x0 : Vec F S512x1024 .f32) (x1 : Vec F S1024x3072 .bf16) (x2 : Vec F S1x3072 .f32) : Vec F S512x1024 .bf16 :=
  View.canon [⟨(Rect.unit (s := S512x1024) ![0, 0] S512x1024.size inb_S512x1024_S512x1024_0_0), k0_pay3 (View.ld x0 (Rect.unit (s := S512x1024) ![0, 0] S512x1024.size inb_S512x1024_S512x1024_0_0)) (View.ld x1 (Rect.unit (s := S1024x3072) ![0, 0] S1024x3072.size inb_S1024x3072_S1024x3072_0_0)) (View.ld x2 (Rect.unit (s := S1x3072) ![0, 0] S1x3072.size inb_S1x3072_S1x3072_0_0))⟩]

theorem cover0_4 (p0 : Vec F S512x1024 .bf16) (y : S512x1024.Idx) :
    ∃ pc ∈ ([⟨(Rect.unit (s := S512x1024) ![0, 0] S512x1024.size inb_S512x1024_S512x1024_0_0), p0⟩] : List (View.Piece (Elt F) S512x1024 .bf16)), y ∈ pc.1.set :=
  View.cover_of_tiled [⟨(Rect.unit (s := S512x1024) ![0, 0] S512x1024.size inb_S512x1024_S512x1024_0_0), p0⟩] S512x1024.size (by rfl) y

/-- Output window 5's staging buffer after the body: its one store, which covers the whole block, of the body's
    value of the input blocks. -/
def out0_5 (x0 : Vec F S512x1024 .f32) (x1 : Vec F S1024x3072 .bf16) (x2 : Vec F S1x3072 .f32) : Vec F S512x1024 .bf16 :=
  View.canon [⟨(Rect.unit (s := S512x1024) ![0, 0] S512x1024.size inb_S512x1024_S512x1024_0_0), k0_pay4 (View.ld x0 (Rect.unit (s := S512x1024) ![0, 0] S512x1024.size inb_S512x1024_S512x1024_0_0)) (View.ld x1 (Rect.unit (s := S1024x3072) ![0, 0] S1024x3072.size inb_S1024x3072_S1024x3072_0_0)) (View.ld x2 (Rect.unit (s := S1x3072) ![0, 0] S1x3072.size inb_S1x3072_S1x3072_0_0))⟩]

theorem cover0_5 (p0 : Vec F S512x1024 .bf16) (y : S512x1024.Idx) :
    ∃ pc ∈ ([⟨(Rect.unit (s := S512x1024) ![0, 0] S512x1024.size inb_S512x1024_S512x1024_0_0), p0⟩] : List (View.Piece (Elt F) S512x1024 .bf16)), y ∈ pc.1.set :=
  View.cover_of_tiled [⟨(Rect.unit (s := S512x1024) ![0, 0] S512x1024.size inb_S512x1024_S512x1024_0_0), p0⟩] S512x1024.size (by rfl) y

set_option maxHeartbeats 1000000 in
/-- The body on whole staging buffers: with the inputs' buffers at `x…` and the outputs' at anything, it runs to its
    continuation with the inputs' buffers as they were and each output's at its `out0_…` of the inputs. -/
theorem sound_kernel0 (c : Dev nD) (E : Set ℕ) (i : grid0.Coords) (a0 : Memref sig .tc .vmem S512x1024 .f32) (ha0 : a0.IsWhole) (a1 : Memref sig .tc .vmem S1024x3072 .bf16) (ha1 : a1.IsWhole) (a2 : Memref sig .tc .vmem S1x3072 .f32) (ha2 : a2.IsWhole) (a3 : Memref sig .tc .vmem S512x1024 .bf16) (ha3 : a3.IsWhole) (a4 : Memref sig .tc .vmem S512x1024 .bf16) (ha4 : a4.IsWhole) (a5 : Memref sig .tc .vmem S512x1024 .bf16) (ha5 : a5.IsWhole)
    (x0 : Vec F S512x1024 .f32) (x1 : Vec F S1024x3072 .bf16) (x2 : Vec F S1x3072 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2) ∗ owns (c : Thread nD τ) a4 fullShare (out0_4 x0 x1 x2) ∗ owns (c : Thread nD τ) a5 fullShare (out0_5 x0 x1 x2)) -∗ K ⟨⟩))
      ⊢ wp frame (wpE (defs₀ (F := F)) Variants.none c none) E (cc0__qkv_kernel i a0 ha0 a1 ha1 a2 ha2 a3 ha3 a4 ha4 a5 ha5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-- The pipeline's proof data on core `c`: the arrays as the region finds them; after the body at point `t` each
    input's buffer still at its block and each output's at `out0_…` of the input blocks; the invariant that leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any grid point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  Region 1, attention for one (batch, head) pair and one tile of 512 queries. At a grid point the body reads
  the query tile and that pair's whole key and value arrays, scales the queries by 1/8, forms the [512, 2048]
  scores against every key, subtracts each row's maximum, exponentiates, and stores (exp-scores · values)
  divided by each row's sum of exponentials.
  This module says what each output block's staging buffer holds after the body, as a function of the input blocks;
  runs the body on whole staging buffers; and packs the pipeline's proof data and its body obligation. Everything is
  stated at a parameter `V`, the buffer contents the region is entered with, and at any float instance.
-/
import proofs.«169357_j53094385713646_2_alg».proof.Proof.Gen.Kernel.Launch
import proofs.«169357_j53094385713646_2_alg».proof.Proof.Gen.Kernel.Skeleton
import proofs.«169357_j53094385713646_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds that window's block at every point, whether the pipeline
    fetched it there or kept it (its block index had not moved), for any proof data over the entry contents. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds that window's block at every point, whether the pipeline
    fetched it there or kept it (its block index had not moved), for any proof data over the entry contents. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds that window's block at every point, whether the pipeline
    fetched it there or kept it (its block index had not moved), for any proof data over the entry contents. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Output window 3's staging buffer after the body: its one store, which covers the whole block, of the body's
    value of the input blocks. -/
def out1_3 (x0 : Vec F S1x512x64 .bf16) (x1 : Vec F S1x2048x64 .bf16) (x2 : Vec F S1x2048x64 .bf16) : Vec F S1x512x64 .f32 :=
  View.canon [⟨(Rect.unit (s := S1x512x64) ![0, 0, 0] S1x512x64.size inb_S1x512x64_S1x512x64_0_0_0), k1_pay1 (View.ld x0 (Rect.unit (s := S1x512x64) ![0, 0, 0] S1x512x64.size inb_S1x512x64_S1x512x64_0_0_0)) (View.ld x1 (Rect.unit (s := S1x2048x64) ![0, 0, 0] S1x2048x64.size inb_S1x2048x64_S1x2048x64_0_0_0)) (View.ld x2 (Rect.unit (s := S1x2048x64) ![0, 0, 0] S1x2048x64.size inb_S1x2048x64_S1x2048x64_0_0_0))⟩]

theorem cover1_3 (p0 : Vec F S1x512x64 .f32) (y : S1x512x64.Idx) :
    ∃ pc ∈ ([⟨(Rect.unit (s := S1x512x64) ![0, 0, 0] S1x512x64.size inb_S1x512x64_S1x512x64_0_0_0), p0⟩] : List (View.Piece (Elt F) S1x512x64 .f32)), y ∈ pc.1.set :=
  View.cover_of_tiled [⟨(Rect.unit (s := S1x512x64) ![0, 0, 0] S1x512x64.size inb_S1x512x64_S1x512x64_0_0_0), p0⟩] S1x512x64.size (by rfl) y

set_option maxHeartbeats 1000000 in
/-- The body on whole staging buffers: with the inputs' buffers at `x…` and the outputs' at anything, it runs to its
    continuation with the inputs' buffers as they were and each output's at its `out1_…` of the inputs. -/
theorem sound_kernel1 (c : Dev nD) (E : Set ℕ) (i : grid1.Coords) (a0 : Memref sig .tc .vmem S1x512x64 .bf16) (ha0 : a0.IsWhole) (a1 : Memref sig .tc .vmem S1x2048x64 .bf16) (ha1 : a1.IsWhole) (a2 : Memref sig .tc .vmem S1x2048x64 .bf16) (ha2 : a2.IsWhole) (a3 : Memref sig .tc .vmem S1x512x64 .f32) (ha3 : a3.IsWhole)
    (x0 : Vec F S1x512x64 .bf16) (x1 : Vec F S1x2048x64 .bf16) (x2 : Vec F S1x2048x64 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__flash_kernel i a0 ha0 a1 ha1 a2 ha2 a3 ha3) K := by
  simp only [cc1__flash_kernel_eq_skeleton]; unfold cc1__flash_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer still at its block and each output's at `out1_…` of the input blocks; the invariant that leaves the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
/-
  Region 2, the output projection. At a grid point the body reads a 512-row block of the merged heads, the
  whole [1024, 1024] weight and the [1, 1024] bias row, and stores block · weight + bias.
  This module says what each output block's staging buffer holds after the body, as a function of the input blocks;
  runs the body on whole staging buffers; and packs the pipeline's proof data and its body obligation. Everything is
  stated at a parameter `V`, the buffer contents the region is entered with, and at any float instance.
-/
import proofs.«169357_j53094385713646_2_alg».proof.Proof.Gen.Kernel.Launch
import proofs.«169357_j53094385713646_2_alg».proof.Proof.Gen.Kernel.Skeleton
import proofs.«169357_j53094385713646_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds that window's block at every point, whether the pipeline
    fetched it there or kept it (its block index had not moved), for any proof data over the entry contents. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds that window's block at every point, whether the pipeline
    fetched it there or kept it (its block index had not moved), for any proof data over the entry contents. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds that window's block at every point, whether the pipeline
    fetched it there or kept it (its block index had not moved), for any proof data over the entry contents. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Output window 3's staging buffer after the body: its one store, which covers the whole block, of the body's
    value of the input blocks. -/
def out2_3 (x0 : Vec F S512x1024 .f32) (x1 : Vec F S1024x1024 .bf16) (x2 : Vec F S1x1024 .f32) : Vec F S512x1024 .f32 :=
  View.canon [⟨(Rect.unit (s := S512x1024) ![0, 0] S512x1024.size inb_S512x1024_S512x1024_0_0), k2_pay1 (View.ld x0 (Rect.unit (s := S512x1024) ![0, 0] S512x1024.size inb_S512x1024_S512x1024_0_0)) (View.ld x1 (Rect.unit (s := S1024x1024) ![0, 0] S1024x1024.size inb_S1024x1024_S1024x1024_0_0)) (View.ld x2 (Rect.unit (s := S1x1024) ![0, 0] S1x1024.size inb_S1x1024_S1x1024_0_0))⟩]

theorem cover2_3 (p0 : Vec F S512x1024 .f32) (y : S512x1024.Idx) :
    ∃ pc ∈ ([⟨(Rect.unit (s := S512x1024) ![0, 0] S512x1024.size inb_S512x1024_S512x1024_0_0), p0⟩] : List (View.Piece (Elt F) S512x1024 .f32)), y ∈ pc.1.set :=
  View.cover_of_tiled [⟨(Rect.unit (s := S512x1024) ![0, 0] S512x1024.size inb_S512x1024_S512x1024_0_0), p0⟩] S512x1024.size (by rfl) y

set_option maxHeartbeats 1000000 in
/-- The body on whole staging buffers: with the inputs' buffers at `x…` and the outputs' at anything, it runs to its
    continuation with the inputs' buffers as they were and each output's at its `out2_…` of the inputs. -/
theorem sound_kernel2 (c : Dev nD) (E : Set ℕ) (i : grid2.Coords) (a0 : Memref sig .tc .vmem S512x1024 .f32) (ha0 : a0.IsWhole) (a1 : Memref sig .tc .vmem S1024x1024 .bf16) (ha1 : a1.IsWhole) (a2 : Memref sig .tc .vmem S1x1024 .f32) (ha2 : a2.IsWhole) (a3 : Memref sig .tc .vmem S512x1024 .f32) (ha3 : a3.IsWhole)
    (x0 : Vec F S512x1024 .f32) (x1 : Vec F S1024x1024 .bf16) (x2 : Vec F S1x1024 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__linear_kernel i a0 ha0 a1 ha1 a2 ha2 a3 ha3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer still at its block and each output's at `out2_…` of the input blocks; the invariant that leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRun.lean ====
/-
  The whole program as one run. @main is seven items in order: host operations, the projection region, host
  operations (the split into heads), the attention region, host operations (the merge of heads), the output
  projection region, and a last reshape. This module names the contents of every unscoped buffer at each of the
  eight boundaries (`W0` at launch … `W7` at the return), makes each region a segment entered at one boundary's
  contents and left at the next's, and concludes that every weakly fair execution terminates, without a fault, with
  every unscoped buffer at `W7`. That no argument array is ever written is read off the same fold.
-/
import proofs.«169357_j53094385713646_2_alg».proof.Proof.BitsRegion0
import proofs.«169357_j53094385713646_2_alg».proof.Proof.BitsRegion1
import proofs.«169357_j53094385713646_2_alg».proof.Proof.BitsRegion2
import proofs.«169357_j53094385713646_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s unscoped buffers at launch. -/
abbrev W0 (m : (ℓ : Loc nD τ sig) → Buf (Elt F) ℓ) (_ρ : Dev nD → PrngReg) : Dev nD → Valuation τ sig (Elt F) := fun c b => m ((c : Dev nD), b)
/-- After the first host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its windows' arrays at what the pipeline leaves (an input as entered, an output with every
    block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations that follow region 0. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its windows' arrays at what the pipeline leaves (an input as entered, an output with every
    block written back), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations that follow region 1. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its windows' arrays at what the pipeline leaves (an input as entered, an output with every
    block written back), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations that follow region 2. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-! ## No item writes an argument -/

/-- A buffer that no host operation writes and that is no region's window array reaches the return as launched. -/
theorem W7_of_untouched (c : Dev nD) (b : Ref sig .tc) (h0 : b ∉ hostOps0_W) (h1 : b ∉ hostOps1_W) (h2 : b ∉ hostOps2_W) (h3 : b ∉ hostOps3_W)
    (g0 : ∀ w, Pipeline.arrRef spec0 w ≠ b) (g1 : ∀ w, Pipeline.arrRef spec1 w ≠ b) (g2 : ∀ w, Pipeline.arrRef spec2 w ≠ b) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b g2
    _ = W4 m ρ c (Proc.devRef .tc b) := StableHlo.after_of_writes_sub hostOps2 _ hostOps2_writes h2
    _ = W3 m ρ c (Proc.devRef .tc b) := W4_of_ne m ρ c b g1
    _ = W2 m ρ c (Proc.devRef .tc b) := StableHlo.after_of_writes_sub hostOps1 _ hostOps1_writes h1
    _ = W1 m ρ c (Proc.devRef .tc b) := W2_of_ne m ρ c b g0
    _ = W0 m ρ c (Proc.devRef .tc b) := StableHlo.after_of_writes_sub hostOps0 _ hostOps0_writes h0
    _ = m ((c : Thread nD τ).loc b) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_of_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_of_untouched m ρ c main_arg8 (by decide) (by decide) (by decide) (by decide) (by decide) (by decide) (by decide)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside "nothing owed": every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- unifying a library lemma stated over the pinned configuration with the printed one needs plain definitions unfolded
-- in a metavariable's type
set_option backward.isDefEq.respectTransparency.types false in
/-- Region 0 as a segment: entered with every unscoped buffer at `W1`, left with them at `W2`. Its windows' arrays are
    split out of the unscoped buffers on entry and put back at their final contents on exit; the generator register goes
    into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions unfolded
-- in a metavariable's type
set_option backward.isDefEq.respectTransparency.types false in
/-- Region 1 as a segment: entered with every unscoped buffer at `W3`, left with them at `W4`. Its windows' arrays are
    split out of the unscoped buffers on entry and put back at their final contents on exit; the generator register goes
    into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions unfolded
-- in a metavariable's type
set_option backward.isDefEq.respectTransparency.types false in
/-- Region 2 as a segment: entered with every unscoped buffer at `W5`, left with them at `W6`. Its windows' arrays are
    split out of the unscoped buffers on entry and put back at their final contents on exit; the generator register goes
    into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- The run: from any memory with zero counters, every weakly fair execution of @main terminates, nothing faulting, with
    every unscoped buffer of every core at `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.BitsFrame.lean ====
/-
  The frame of the program: the run ends with every unscoped buffer at the last boundary's contents, and at each of the
  nine argument arrays those contents are the launch contents, since no host operation and no region writes an argument.
-/
import proofs.«169357_j53094385713646_2_alg».proof.Proof.BitsRun

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c)⟩) (run m ρ)

end Cert.Kernel.Hand

end
-- ==== Proof.IdealRegion0.lean ====
/-
  Region 0, the fused projection. At a grid point the body reads a 512-row block of the flattened input,
  the whole [1024, 3072] weight and the [1, 3072] bias row, forms block · weight + bias, and stores the three
  1024-lane thirds of that [512, 3072] value into the three output blocks.
  This module says what each output block's staging buffer holds after the body, as a function of the input blocks;
  runs the body on whole staging buffers; and packs the pipeline's proof data and its body obligation. Everything is
  stated at a parameter `V`, the buffer contents the region is entered with, and at any float instance.
-/
import proofs.«169357_j53094385713646_2_alg».proof.Proof.Gen.KernelIdeal.Launch
import proofs.«169357_j53094385713646_2_alg».proof.Proof.Gen.KernelIdeal.Skeleton
import proofs.«169357_j53094385713646_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds that window's block at every point, whether the pipeline
    fetched it there or kept it (its block index had not moved), for any proof data over the entry contents. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds that window's block at every point, whether the pipeline
    fetched it there or kept it (its block index had not moved), for any proof data over the entry contents. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds that window's block at every point, whether the pipeline
    fetched it there or kept it (its block index had not moved), for any proof data over the entry contents. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Output window 3's staging buffer after the body: its one store, which covers the whole block, of the body's
    value of the input blocks. -/
def out0_3 (x0 : Vec F S512x1024 .f32) (x1 : Vec F S1024x3072 .bf16) (x2 : Vec F S1x3072 .f32) : Vec F S512x1024 .bf16 :=
  View.canon [⟨(Rect.unit (s := S512x1024) ![0, 0] S512x1024.size inb_S512x1024_S512x1024_0_0), k0_pay2 (View.ld x0 (Rect.unit (s := S512x1024) ![0, 0] S512x1024.size inb_S512x1024_S512x1024_0_0)) (View.ld x1 (Rect.unit (s := S1024x3072) ![0, 0] S1024x3072.size inb_S1024x3072_S1024x3072_0_0)) (View.ld x2 (Rect.unit (s := S1x3072) ![0, 0] S1x3072.size inb_S1x3072_S1x3072_0_0))⟩]

theorem cover0_3 (p0 : Vec F S512x1024 .bf16) (y : S512x1024.Idx) :
    ∃ pc ∈ ([⟨(Rect.unit (s := S512x1024) ![0, 0] S512x1024.size inb_S512x1024_S512x1024_0_0), p0⟩] : List (View.Piece (Elt F) S512x1024 .bf16)), y ∈ pc.1.set :=
  View.cover_of_tiled [⟨(Rect.unit (s := S512x1024) ![0, 0] S512x1024.size inb_S512x1024_S512x1024_0_0), p0⟩] S512x1024.size (by rfl) y

/-- Output window 4's staging buffer after the body: its one store, which covers the whole block, of the body's
    value of the input blocks. -/
def out0_4 (x0 : Vec F S512x1024 .f32) (x1 : Vec F S1024x3072 .bf16) (x2 : Vec F S1x3072 .f32) : Vec F S512x1024 .bf16 :=
  View.canon [⟨(Rect.unit (s := S512x1024) ![0, 0] S512x1024.size inb_S512x1024_S512x1024_0_0), k0_pay3 (View.ld x0 (Rect.unit (s := S512x1024) ![0, 0] S512x1024.size inb_S512x1024_S512x1024_0_0)) (View.ld x1 (Rect.unit (s := S1024x3072) ![0, 0] S1024x3072.size inb_S1024x3072_S1024x3072_0_0)) (View.ld x2 (Rect.unit (s := S1x3072) ![0, 0] S1x3072.size inb_S1x3072_S1x3072_0_0))⟩]

theorem cover0_4 (p0 : Vec F S512x1024 .bf16) (y : S512x1024.Idx) :
    ∃ pc ∈ ([⟨(Rect.unit (s := S512x1024) ![0, 0] S512x1024.size inb_S512x1024_S512x1024_0_0), p0⟩] : List (View.Piece (Elt F) S512x1024 .bf16)), y ∈ pc.1.set :=
  View.cover_of_tiled [⟨(Rect.unit (s := S512x1024) ![0, 0] S512x1024.size inb_S512x1024_S512x1024_0_0), p0⟩] S512x1024.size (by rfl) y

/-- Output window 5's staging buffer after the body: its one store, which covers the whole block, of the body's
    value of the input blocks. -/
def out0_5 (x0 : Vec F S512x1024 .f32) (x1 : Vec F S1024x3072 .bf16) (x2 : Vec F S1x3072 .f32) : Vec F S512x1024 .bf16 :=
  View.canon [⟨(Rect.unit (s := S512x1024) ![0, 0] S512x1024.size inb_S512x1024_S512x1024_0_0), k0_pay4 (View.ld x0 (Rect.unit (s := S512x1024) ![0, 0] S512x1024.size inb_S512x1024_S512x1024_0_0)) (View.ld x1 (Rect.unit (s := S1024x3072) ![0, 0] S1024x3072.size inb_S1024x3072_S1024x3072_0_0)) (View.ld x2 (Rect.unit (s := S1x3072) ![0, 0] S1x3072.size inb_S1x3072_S1x3072_0_0))⟩]

theorem cover0_5 (p0 : Vec F S512x1024 .bf16) (y : S512x1024.Idx) :
    ∃ pc ∈ ([⟨(Rect.unit (s := S512x1024) ![0, 0] S512x1024.size inb_S512x1024_S512x1024_0_0), p0⟩] : List (View.Piece (Elt F) S512x1024 .bf16)), y ∈ pc.1.set :=
  View.cover_of_tiled [⟨(Rect.unit (s := S512x1024) ![0, 0] S512x1024.size inb_S512x1024_S512x1024_0_0), p0⟩] S512x1024.size (by rfl) y

set_option maxHeartbeats 1000000 in
/-- The body on whole staging buffers: with the inputs' buffers at `x…` and the outputs' at anything, it runs to its
    continuation with the inputs' buffers as they were and each output's at its `out0_…` of the inputs. -/
theorem sound_kernel0 (c : Dev nD) (E : Set ℕ) (i : grid0.Coords) (a0 : Memref sig .tc .vmem S512x1024 .f32) (ha0 : a0.IsWhole) (a1 : Memref sig .tc .vmem S1024x3072 .bf16) (ha1 : a1.IsWhole) (a2 : Memref sig .tc .vmem S1x3072 .f32) (ha2 : a2.IsWhole) (a3 : Memref sig .tc .vmem S512x1024 .bf16) (ha3 : a3.IsWhole) (a4 : Memref sig .tc .vmem S512x1024 .bf16) (ha4 : a4.IsWhole) (a5 : Memref sig .tc .vmem S512x1024 .bf16) (ha5 : a5.IsWhole)
    (x0 : Vec F S512x1024 .f32) (x1 : Vec F S1024x3072 .bf16) (x2 : Vec F S1x3072 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2) ∗ owns (c : Thread nD τ) a4 fullShare (out0_4 x0 x1 x2) ∗ owns (c : Thread nD τ) a5 fullShare (out0_5 x0 x1 x2)) -∗ K ⟨⟩))
      ⊢ wp frame (wpE (defs₀ (F := F)) Variants.none c none) E (cc0__qkv_kernel i a0 ha0 a1 ha1 a2 ha2 a3 ha3 a4 ha4 a5 ha5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-- The pipeline's proof data on core `c`: the arrays as the region finds them; after the body at point `t` each
    input's buffer still at its block and each output's at `out0_…` of the input blocks; the invariant that leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any grid point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  Region 1, attention for one (batch, head) pair and one tile of 512 queries. At a grid point the body reads
  the query tile and that pair's whole key and value arrays, scales the queries by 1/8, forms the [512, 2048]
  scores against every key, subtracts each row's maximum, exponentiates, and stores (exp-scores · values)
  divided by each row's sum of exponentials.
  This module says what each output block's staging buffer holds after the body, as a function of the input blocks;
  runs the body on whole staging buffers; and packs the pipeline's proof data and its body obligation. Everything is
  stated at a parameter `V`, the buffer contents the region is entered with, and at any float instance.
-/
import proofs.«169357_j53094385713646_2_alg».proof.Proof.Gen.KernelIdeal.Launch
import proofs.«169357_j53094385713646_2_alg».proof.Proof.Gen.KernelIdeal.Skeleton
import proofs.«169357_j53094385713646_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds that window's block at every point, whether the pipeline
    fetched it there or kept it (its block index had not moved), for any proof data over the entry contents. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds that window's block at every point, whether the pipeline
    fetched it there or kept it (its block index had not moved), for any proof data over the entry contents. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds that window's block at every point, whether the pipeline
    fetched it there or kept it (its block index had not moved), for any proof data over the entry contents. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Output window 3's staging buffer after the body: its one store, which covers the whole block, of the body's
    value of the input blocks. -/
def out1_3 (x0 : Vec F S1x512x64 .bf16) (x1 : Vec F S1x2048x64 .bf16) (x2 : Vec F S1x2048x64 .bf16) : Vec F S1x512x64 .f32 :=
  View.canon [⟨(Rect.unit (s := S1x512x64) ![0, 0, 0] S1x512x64.size inb_S1x512x64_S1x512x64_0_0_0), k1_pay1 (View.ld x0 (Rect.unit (s := S1x512x64) ![0, 0, 0] S1x512x64.size inb_S1x512x64_S1x512x64_0_0_0)) (View.ld x1 (Rect.unit (s := S1x2048x64) ![0, 0, 0] S1x2048x64.size inb_S1x2048x64_S1x2048x64_0_0_0)) (View.ld x2 (Rect.unit (s := S1x2048x64) ![0, 0, 0] S1x2048x64.size inb_S1x2048x64_S1x2048x64_0_0_0))⟩]

theorem cover1_3 (p0 : Vec F S1x512x64 .f32) (y : S1x512x64.Idx) :
    ∃ pc ∈ ([⟨(Rect.unit (s := S1x512x64) ![0, 0, 0] S1x512x64.size inb_S1x512x64_S1x512x64_0_0_0), p0⟩] : List (View.Piece (Elt F) S1x512x64 .f32)), y ∈ pc.1.set :=
  View.cover_of_tiled [⟨(Rect.unit (s := S1x512x64) ![0, 0, 0] S1x512x64.size inb_S1x512x64_S1x512x64_0_0_0), p0⟩] S1x512x64.size (by rfl) y

set_option maxHeartbeats 1000000 in
/-- The body on whole staging buffers: with the inputs' buffers at `x…` and the outputs' at anything, it runs to its
    continuation with the inputs' buffers as they were and each output's at its `out1_…` of the inputs. -/
theorem sound_kernel1 (c : Dev nD) (E : Set ℕ) (i : grid1.Coords) (a0 : Memref sig .tc .vmem S1x512x64 .bf16) (ha0 : a0.IsWhole) (a1 : Memref sig .tc .vmem S1x2048x64 .bf16) (ha1 : a1.IsWhole) (a2 : Memref sig .tc .vmem S1x2048x64 .bf16) (ha2 : a2.IsWhole) (a3 : Memref sig .tc .vmem S1x512x64 .f32) (ha3 : a3.IsWhole)
    (x0 : Vec F S1x512x64 .bf16) (x1 : Vec F S1x2048x64 .bf16) (x2 : Vec F S1x2048x64 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__flash_kernel i a0 ha0 a1 ha1 a2 ha2 a3 ha3) K := by
  simp only [cc1__flash_kernel_eq_skeleton]; unfold cc1__flash_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer still at its block and each output's at `out1_…` of the input blocks; the invariant that leaves the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
/-
  Region 2, the output projection. At a grid point the body reads a 512-row block of the merged heads, the
  whole [1024, 1024] weight and the [1, 1024] bias row, and stores block · weight + bias.
  This module says what each output block's staging buffer holds after the body, as a function of the input blocks;
  runs the body on whole staging buffers; and packs the pipeline's proof data and its body obligation. Everything is
  stated at a parameter `V`, the buffer contents the region is entered with, and at any float instance.
-/
import proofs.«169357_j53094385713646_2_alg».proof.Proof.Gen.KernelIdeal.Launch
import proofs.«169357_j53094385713646_2_alg».proof.Proof.Gen.KernelIdeal.Skeleton
import proofs.«169357_j53094385713646_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds that window's block at every point, whether the pipeline
    fetched it there or kept it (its block index had not moved), for any proof data over the entry contents. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds that window's block at every point, whether the pipeline
    fetched it there or kept it (its block index had not moved), for any proof data over the entry contents. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds that window's block at every point, whether the pipeline
    fetched it there or kept it (its block index had not moved), for any proof data over the entry contents. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Output window 3's staging buffer after the body: its one store, which covers the whole block, of the body's
    value of the input blocks. -/
def out2_3 (x0 : Vec F S512x1024 .f32) (x1 : Vec F S1024x1024 .bf16) (x2 : Vec F S1x1024 .f32) : Vec F S512x1024 .f32 :=
  View.canon [⟨(Rect.unit (s := S512x1024) ![0, 0] S512x1024.size inb_S512x1024_S512x1024_0_0), k2_pay1 (View.ld x0 (Rect.unit (s := S512x1024) ![0, 0] S512x1024.size inb_S512x1024_S512x1024_0_0)) (View.ld x1 (Rect.unit (s := S1024x1024) ![0, 0] S1024x1024.size inb_S1024x1024_S1024x1024_0_0)) (View.ld x2 (Rect.unit (s := S1x1024) ![0, 0] S1x1024.size inb_S1x1024_S1x1024_0_0))⟩]

theorem cover2_3 (p0 : Vec F S512x1024 .f32) (y : S512x1024.Idx) :
    ∃ pc ∈ ([⟨(Rect.unit (s := S512x1024) ![0, 0] S512x1024.size inb_S512x1024_S512x1024_0_0), p0⟩] : List (View.Piece (Elt F) S512x1024 .f32)), y ∈ pc.1.set :=
  View.cover_of_tiled [⟨(Rect.unit (s := S512x1024) ![0, 0] S512x1024.size inb_S512x1024_S512x1024_0_0), p0⟩] S512x1024.size (by rfl) y

set_option maxHeartbeats 1000000 in
/-- The body on whole staging buffers: with the inputs' buffers at `x…` and the outputs' at anything, it runs to its
    continuation with the inputs' buffers as they were and each output's at its `out2_…` of the inputs. -/
theorem sound_kernel2 (c : Dev nD) (E : Set ℕ) (i : grid2.Coords) (a0 : Memref sig .tc .vmem S512x1024 .f32) (ha0 : a0.IsWhole) (a1 : Memref sig .tc .vmem S1024x1024 .bf16) (ha1 : a1.IsWhole) (a2 : Memref sig .tc .vmem S1x1024 .f32) (ha2 : a2.IsWhole) (a3 : Memref sig .tc .vmem S512x1024 .f32) (ha3 : a3.IsWhole)
    (x0 : Vec F S512x1024 .f32) (x1 : Vec F S1024x1024 .bf16) (x2 : Vec F S1x1024 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__linear_kernel i a0 ha0 a1 ha1 a2 ha2 a3 ha3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the region finds them; after the body at point `t` each
    input's buffer still at its block and each output's at `out2_…` of the input blocks; the invariant that leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRun.lean ====
/-
  The whole program as one run. @main is seven items in order: host operations, the projection region, host
  operations (the split into heads), the attention region, host operations (the merge of heads), the output
  projection region, and a last reshape. This module names the contents of every unscoped buffer at each of the
  eight boundaries (`W0` at launch … `W7` at the return), makes each region a segment entered at one boundary's
  contents and left at the next's, and concludes that every weakly fair execution terminates, without a fault, with
  every unscoped buffer at `W7`. That no argument array is ever written is read off the same fold.
-/
import proofs.«169357_j53094385713646_2_alg».proof.Proof.IdealRegion0
import proofs.«169357_j53094385713646_2_alg».proof.Proof.IdealRegion1
import proofs.«169357_j53094385713646_2_alg».proof.Proof.IdealRegion2
import proofs.«169357_j53094385713646_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s unscoped buffers at launch. -/
abbrev W0 (m : (ℓ : Loc nD τ sig) → Buf (Elt F) ℓ) (_ρ : Dev nD → PrngReg) : Dev nD → Valuation τ sig (Elt F) := fun c b => m ((c : Dev nD), b)
/-- After the first host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its windows' arrays at what the pipeline leaves (an input as entered, an output with every
    block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations that follow region 0. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its windows' arrays at what the pipeline leaves (an input as entered, an output with every
    block written back), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations that follow region 1. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its windows' arrays at what the pipeline leaves (an input as entered, an output with every
    block written back), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations that follow region 2. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-! ## No item writes an argument -/

/-- A buffer that no host operation writes and that is no region's window array reaches the return as launched. -/
theorem W7_of_untouched (c : Dev nD) (b : Ref sig .tc) (h0 : b ∉ hostOps0_W) (h1 : b ∉ hostOps1_W) (h2 : b ∉ hostOps2_W) (h3 : b ∉ hostOps3_W)
    (g0 : ∀ w, Pipeline.arrRef spec0 w ≠ b) (g1 : ∀ w, Pipeline.arrRef spec1 w ≠ b) (g2 : ∀ w, Pipeline.arrRef spec2 w ≠ b) :
    W7 m ρ c (Proc.devRef .tc b) = m ((c : Thread nD τ).loc b) :=
  calc W7 m ρ c (Proc.devRef .tc b)
    _ = W6 m ρ c (Proc.devRef .tc b) := StableHlo.after_of_writes_sub hostOps3 _ hostOps3_writes h3
    _ = W5 m ρ c (Proc.devRef .tc b) := W6_of_ne m ρ c b g2
    _ = W4 m ρ c (Proc.devRef .tc b) := StableHlo.after_of_writes_sub hostOps2 _ hostOps2_writes h2
    _ = W3 m ρ c (Proc.devRef .tc b) := W4_of_ne m ρ c b g1
    _ = W2 m ρ c (Proc.devRef .tc b) := StableHlo.after_of_writes_sub hostOps1 _ hostOps1_writes h1
    _ = W1 m ρ c (Proc.devRef .tc b) := W2_of_ne m ρ c b g0
    _ = W0 m ρ c (Proc.devRef .tc b) := StableHlo.after_of_writes_sub hostOps0 _ hostOps0_writes h0
    _ = m ((c : Thread nD τ).loc b) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)
theorem W7_main_arg3 (c : Dev nD) : W7 m ρ c (Proc.devRef .tc main_arg3) = m ((c : Thread nD τ).loc main_arg3) :=
  W7_of_untouched m ρ c main_arg3 (by decide) (by decide) (by decide) (by decide) (by decide) (by decide) (by decide)
theorem W7_main_arg4 (c : Dev nD) : W7 m ρ c (Proc.devRef .tc main_arg4) = m ((c : Thread nD τ).loc main_arg4) :=
  W7_of_untouched m ρ c main_arg4 (by decide) (by decide) (by decide) (by decide) (by decide) (by decide) (by decide)
theorem W7_main_arg5 (c : Dev nD) : W7 m ρ c (Proc.devRef .tc main_arg5) = m ((c : Thread nD τ).loc main_arg5) :=
  W7_of_untouched m ρ c main_arg5 (by decide) (by decide) (by decide) (by decide) (by decide) (by decide) (by decide)
theorem W7_main_arg6 (c : Dev nD) : W7 m ρ c (Proc.devRef .tc main_arg6) = m ((c : Thread nD τ).loc main_arg6) :=
  W7_of_untouched m ρ c main_arg6 (by decide) (by decide) (by decide) (by decide) (by decide) (by decide) (by decide)
theorem W7_main_arg7 (c : Dev nD) : W7 m ρ c (Proc.devRef .tc main_arg7) = m ((c : Thread nD τ).loc main_arg7) :=
  W7_of_untouched m ρ c main_arg7 (by decide) (by decide) (by decide) (by decide) (by decide) (by decide) (by decide)
theorem W7_main_arg8 (c : Dev nD) : W7 m ρ c (Proc.devRef .tc main_arg8) = m ((c : Thread nD τ).loc main_arg8) :=
  W7_of_untouched m ρ c main_arg8 (by decide) (by decide) (by decide) (by decide) (by decide) (by decide) (by decide)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside "nothing owed": every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

-- unifying a library lemma stated over the pinned configuration with the printed one needs plain definitions unfolded
-- in a metavariable's type
set_option backward.isDefEq.respectTransparency.types false in
/-- Region 0 as a segment: entered with every unscoped buffer at `W1`, left with them at `W2`. Its windows' arrays are
    split out of the unscoped buffers on entry and put back at their final contents on exit; the generator register goes
    into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions unfolded
-- in a metavariable's type
set_option backward.isDefEq.respectTransparency.types false in
/-- Region 1 as a segment: entered with every unscoped buffer at `W3`, left with them at `W4`. Its windows' arrays are
    split out of the unscoped buffers on entry and put back at their final contents on exit; the generator register goes
    into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions unfolded
-- in a metavariable's type
set_option backward.isDefEq.respectTransparency.types false in
/-- Region 2 as a segment: entered with every unscoped buffer at `W5`, left with them at `W6`. Its windows' arrays are
    split out of the unscoped buffers on entry and put back at their final contents on exit; the generator register goes
    into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- The run: from any memory with zero counters, every weakly fair execution of @main terminates, nothing faulting, with
    every unscoped buffer of every core at `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.IdealFrame.lean ====
/-
  The frame of the program: the run ends with every unscoped buffer at the last boundary's contents, and at each of the
  nine argument arrays those contents are the launch contents, since no host operation and no region writes an argument.
-/
import proofs.«169357_j53094385713646_2_alg».proof.Proof.IdealRun

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c)⟩) (run m ρ)

end Cert.KernelIdeal.Hand

end
-- ==== Proof.IdealStagesHost.lean ====
/-
  The kernel program's buffers, stage by stage, as operations of the nine argument arrays. Between regions the host
  flattens the input, fuses the three transposed weights and the three biases, splits each projection into heads
  (reshape, swap the sequence and head axes, reshape), merges the heads back, transposes the output weight, and
  reshapes the result. This module reads each host operation's result buffer off the boundary contents.
-/
import proofs.«169357_j53094385713646_2_alg».proof.Proof.IdealRun
import Idealize.ShloMosaic.Lib.StableHlo.Run
import Idealize.ShloMosaic.Lib.ValueIdx
import Idealize.ShloMosaic.PureOps.Ideal

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ) (ρ : Dev nD → PrngReg) (c : Dev nD)

/-! ## An argument array is never written -/

theorem W1_arg (b : Ref sig .tc) (h0 : b ∉ hostOps0_W) : W1 m ρ c (Proc.devRef .tc b) = m ((c : Thread nD τ).loc b) :=
  (StableHlo.after_of_writes_sub hostOps0 _ hostOps0_writes h0).trans rfl

theorem W4_arg (b : Ref sig .tc) (h0 : b ∉ hostOps0_W) (h1 : b ∉ hostOps1_W)
    (g0 : ∀ w, Pipeline.arrRef spec0 w ≠ b) (g1 : ∀ w, Pipeline.arrRef spec1 w ≠ b) :
    W4 m ρ c (Proc.devRef .tc b) = m ((c : Thread nD τ).loc b) :=
  calc W4 m ρ c (Proc.devRef .tc b)
    _ = W3 m ρ c (Proc.devRef .tc b) := W4_of_ne m ρ c b g1
    _ = W2 m ρ c (Proc.devRef .tc b) := StableHlo.after_of_writes_sub hostOps1 _ hostOps1_writes h1
    _ = W1 m ρ c (Proc.devRef .tc b) := W2_of_ne m ρ c b g0
    _ = m ((c : Thread nD τ).loc b) := W1_arg m ρ c b h0

/-! ## Before the projection region -/

theorem stage_v0 : V1 m ρ c main_v0 = shapeCast S4096x1024 (W0 m ρ c (Proc.devRef .tc main_arg0)) shapeCasts_S2x2048x1024_S4096x1024 := by
  show StableHlo.after hostOps0 (W0 m ρ c) (Proc.devRef .tc main_v0) = _
  after_results
  rfl

theorem stage_v5 : V1 m ρ c main_v5 = truncf (F := Ideal) .bf16 (concatenate S1024x3072 1
      [⟨S1024x1024, transpose S1024x1024 [1, 0] (W0 m ρ c (Proc.devRef .tc main_arg1)) transposes_S1024x1024_S1024x1024_1_0⟩,
       ⟨S1024x1024, transpose S1024x1024 [1, 0] (W0 m ρ c (Proc.devRef .tc main_arg3)) transposes_S1024x1024_S1024x1024_1_0⟩,
       ⟨S1024x1024, transpose S1024x1024 [1, 0] (W0 m ρ c (Proc.devRef .tc main_arg5)) transposes_S1024x1024_S1024x1024_1_0⟩]
      concatenates_S1024x1024_S1024x1024_S1024x1024_S1024x3072_d1) bitsLt_bf16_f32 := by
  show StableHlo.after hostOps0 (W0 m ρ c) (Proc.devRef .tc main_v5) = _
  after_results
  rfl

theorem stage_v7 : V1 m ρ c main_v7 = shapeCast S1x3072 (concatenate S3072 0
      [⟨S1024, W0 m ρ c (Proc.devRef .tc main_arg2)⟩, ⟨S1024, W0 m ρ c (Proc.devRef .tc main_arg4)⟩, ⟨S1024, W0 m ρ c (Proc.devRef .tc main_arg6)⟩]
      concatenates_S1024_S1024_S1024_S3072_d0) shapeCasts_S3072_S1x3072 := by
  show StableHlo.after hostOps0 (W0 m ρ c) (Proc.devRef .tc main_v7) = _
  after_results
  rfl

/-! ## The split into heads -/

theorem stage_v11 : V3 m ρ c main_v11 = shapeCast S32x2048x64 (transpose S2x16x2048x64 [0, 2, 1, 3]
      (shapeCast S2x2048x16x64 (W2 m ρ c (Proc.devRef .tc main_v8_0)) shapeCasts_S4096x1024_S2x2048x16x64)
      transposes_S2x2048x16x64_S2x16x2048x64_0_2_1_3) shapeCasts_S2x16x2048x64_S32x2048x64 := by
  show StableHlo.after hostOps1 (W2 m ρ c) (Proc.devRef .tc main_v11) = _
  after_results
  rfl
theorem stage_v14 : V3 m ρ c main_v14 = shapeCast S32x2048x64 (transpose S2x16x2048x64 [0, 2, 1, 3]
      (shapeCast S2x2048x16x64 (W2 m ρ c (Proc.devRef .tc main_v8_1)) shapeCasts_S4096x1024_S2x2048x16x64)
      transposes_S2x2048x16x64_S2x16x2048x64_0_2_1_3) shapeCasts_S2x16x2048x64_S32x2048x64 := by
  show StableHlo.after hostOps1 (W2 m ρ c) (Proc.devRef .tc main_v14) = _
  after_results
  rfl
theorem stage_v17 : V3 m ρ c main_v17 = shapeCast S32x2048x64 (transpose S2x16x2048x64 [0, 2, 1, 3]
      (shapeCast S2x2048x16x64 (W2 m ρ c (Proc.devRef .tc main_v8_2)) shapeCasts_S4096x1024_S2x2048x16x64)
      transposes_S2x2048x16x64_S2x16x2048x64_0_2_1_3) shapeCasts_S2x16x2048x64_S32x2048x64 := by
  show StableHlo.after hostOps1 (W2 m ρ c) (Proc.devRef .tc main_v17) = _
  after_results
  rfl

/-! ## The merge of heads, the output weight and bias -/

theorem stage_v21 : V5 m ρ c main_v21 = shapeCast S4096x1024 (transpose S2x2048x16x64 [0, 2, 1, 3]
      (shapeCast S2x16x2048x64 (W4 m ρ c (Proc.devRef .tc main_v18)) shapeCasts_S32x2048x64_S2x16x2048x64)
      transposes_S2x16x2048x64_S2x2048x16x64_0_2_1_3) shapeCasts_S2x2048x16x64_S4096x1024 := by
  show StableHlo.after hostOps2 (W4 m ρ c) (Proc.devRef .tc main_v21) = _
  after_results
  rfl
theorem stage_v23 : V5 m ρ c main_v23 = truncf (F := Ideal) .bf16 (transpose S1024x1024 [1, 0] (W4 m ρ c (Proc.devRef .tc main_arg7))
      transposes_S1024x1024_S1024x1024_1_0) bitsLt_bf16_f32 := by
  show StableHlo.after hostOps2 (W4 m ρ c) (Proc.devRef .tc main_v23) = _
  after_results
  all_goals rfl
theorem stage_v24 : V5 m ρ c main_v24 = shapeCast S1x1024 (W4 m ρ c (Proc.devRef .tc main_arg8)) shapeCasts_S1024_S1x1024 := by
  show StableHlo.after hostOps2 (W4 m ρ c) (Proc.devRef .tc main_v24) = _
  after_results
  rfl

/-! ## The last reshape -/

theorem stage_v26 : W7 m ρ c (Proc.devRef .tc main_v26) = shapeCast S2x2048x1024 (W6 m ρ c (Proc.devRef .tc main_v25)) shapeCasts_S4096x1024_S2x2048x1024 := by
  show StableHlo.after hostOps3 (W6 m ρ c) (Proc.devRef .tc main_v26) = _
  after_results
  rfl

end Cert.KernelIdeal.Hand

end
-- ==== Proof.Spec.lean ====
/-
  Multi-head attention over x : [2, 2048, 1024] with 16 heads of width 64, in the two arrangements the two programs
  compute it in, stated index by index over plain coordinates and the extended reals.

  A linear layer takes a row to (∑ d, row d · w e d) + b e. The queries, keys and values of head h of batch b are lanes
  64·h … 64·h + 63 of the three projections of x. For one (batch, head) pair with keys k and values v (each 2048 × 64),
  attention of one query row q (64 entries) is the softmax over the 2048 keys of the scaled scores, applied to v.

  KERNEL FORM: the scale 1/8 multiplies each query entry before the contraction; the score row has its maximum
  subtracted and is exponentiated; the exponentials are contracted with v first and the result divided by their sum.
  REFERENCE FORM: the contraction is divided by sqrt 64 afterwards; the exponentials are divided by their sum first and
  the quotients contracted with v. Both then merge the heads back into 1024 lanes and apply the output layer.
  For real entries the two forms agree: 1/8 = 1/sqrt 64 moves across a finite sum of reals, and a real nonzero divisor
  moves across a finite sum of reals.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Lane `64·h + j` of the 1024 model lanes: coordinate `j` of head `h`. -/
def lane (h : Fin 16) (j : Fin 64) : Fin 1024 := ⟨h.val * 64 + j.val, by have := h.isLt; have := j.isLt; omega⟩
/-- The head a lane belongs to, and its coordinate inside the head. -/
def headOf (e : Fin 1024) : Fin 16 := ⟨e.val / 64, by have := e.isLt; omega⟩
def offOf (e : Fin 1024) : Fin 64 := ⟨e.val % 64, Nat.mod_lt _ (by decide)⟩
theorem lane_headOf_offOf (e : Fin 1024) : lane (headOf e) (offOf e) = e := by
  apply Fin.ext; simp only [lane, headOf, offOf]; omega
theorem headOf_lane (h : Fin 16) (j : Fin 64) : headOf (lane h j) = h := by
  apply Fin.ext; have := j.isLt; simp only [lane, headOf]; omega
theorem offOf_lane (h : Fin 16) (j : Fin 64) : offOf (lane h j) = j := by
  apply Fin.ext; have := j.isLt; simp only [lane, offOf]; omega

/-- One output lane of a linear layer: the row against row `e` of the weight, plus the bias. -/
def lin (row : Fin 1024 → EReal) (w : Fin 1024 → Fin 1024 → EReal) (b : Fin 1024 → EReal) (e : Fin 1024) : EReal :=
  (∑ d : Fin 1024, row d * w e d) + b e

/-- The float words the programs carry, at their exact values: 0.125, 64 and −∞. -/
def c8 : EReal := Ideal.ofBits .f32 0x3E000000#32
def c64 : EReal := Ideal.ofBits .f32 0x42800000#32
def negInf : EReal := Ideal.ofBits .f32 0xFF800000#32

/-- The maximum of a row of 2048 scores, folded from −∞. -/
def rowMax (s : Fin 2048 → EReal) : EReal := Finset.univ.fold max negInf s

/-! ## One (batch, head) pair, kernel form -/

def scoreK (q : Fin 64 → EReal) (k : Fin 2048 → Fin 64 → EReal) (sk : Fin 2048) : EReal := ∑ j : Fin 64, (q j * c8) * k sk j
def expK (q : Fin 64 → EReal) (k : Fin 2048 → Fin 64 → EReal) (sk : Fin 2048) : EReal :=
  Ideal.exp (scoreK q k sk - rowMax (scoreK q k))
def attnK (q : Fin 64 → EReal) (k v : Fin 2048 → Fin 64 → EReal) (j : Fin 64) : EReal :=
  Ideal.div (∑ sk : Fin 2048, expK q k sk * v sk j) (∑ sk : Fin 2048, expK q k sk)

/-! ## One (batch, head) pair, reference form -/

def scoreR (q : Fin 64 → EReal) (k : Fin 2048 → Fin 64 → EReal) (sk : Fin 2048) : EReal :=
  Ideal.div (∑ j : Fin 64, q j * k sk j) (Ideal.sqrt c64)
def expR (q : Fin 64 → EReal) (k : Fin 2048 → Fin 64 → EReal) (sk : Fin 2048) : EReal :=
  Ideal.exp (scoreR q k sk - max negInf (rowMax (scoreR q k)))
def attnR (q : Fin 64 → EReal) (k v : Fin 2048 → Fin 64 → EReal) (j : Fin 64) : EReal :=
  ∑ sk : Fin 2048, Ideal.div (expR q k sk) (0 + ∑ sk' : Fin 2048, expR q k sk') * v sk j

/-! ## The whole layer -/

section Layer

variable (x : Fin 2 → Fin 2048 → Fin 1024 → EReal) (wq wk wv wo : Fin 1024 → Fin 1024 → EReal)
  (bq bk bv bo : Fin 1024 → EReal)

/-- Head `h` of batch `b` of a projection of `x`: a 2048 × 64 array. -/
def head (w : Fin 1024 → Fin 1024 → EReal) (b' : Fin 1024 → EReal) (b : Fin 2) (h : Fin 16) : Fin 2048 → Fin 64 → EReal :=
  fun s j => lin (x b s) w b' (lane h j)

/-- Row `(b, s)` of the merged heads: lane `e` is coordinate `offOf e` of head `headOf e`'s attention output. -/
def mergedK (b : Fin 2) (s : Fin 2048) (e : Fin 1024) : EReal :=
  attnK (head x wq bq b (headOf e) s) (head x wk bk b (headOf e)) (head x wv bv b (headOf e)) (offOf e)
def mergedR (b : Fin 2) (s : Fin 2048) (e : Fin 1024) : EReal :=
  attnR (head x wq bq b (headOf e) s) (head x wk bk b (headOf e)) (head x wv bv b (headOf e)) (offOf e)

/-- The layer's output, kernel form and reference form. -/
def kern (b : Fin 2) (s : Fin 2048) (e : Fin 1024) : EReal := lin (mergedK x wq wk wv bq bk bv b s) wo bo e
def ref (b : Fin 2) (s : Fin 2048) (e : Fin 1024) : EReal := lin (mergedR x wq wk wv bq bk bv b s) wo bo e

end Layer

/-! ## Arrays as functions of coordinates -/

def cur3 (a : (⟨3, ![2, 2048, 1024]⟩ : Shape).Idx → EReal) : Fin 2 → Fin 2048 → Fin 1024 → EReal := fun b s d => a (ix3 b s d)
def cur2 (a : (⟨2, ![1024, 1024]⟩ : Shape).Idx → EReal) : Fin 1024 → Fin 1024 → EReal := fun e d => a (ix2 e d)
def cur1 (a : (⟨1, ![1024]⟩ : Shape).Idx → EReal) : Fin 1024 → EReal := fun e => a (ix1 e)

/-- Every entry is a real number. -/
def IsReal (z : EReal) : Prop := ∃ r : ℝ, z = (r : EReal)

end Cert.Attn

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.LibDotNT.lean ====
/-
  A matrix product against a transposed right operand, read at an index.

  For dimension numbers `D` of a product of an `M × K` operand with an `N × K` operand into `M × N` that contract ONE
  axis — the second axis of each operand, no batch axis (`x · wᵀ`) — the sum over `D`'s contraction index that the ideal
  instance gives for a `tpu.matmul` and for a host `dot_general` alike is the textbook one: entry `(r, c)` is the sum over
  `k : Fin K` of the left operand at `(r, k)` times the right operand at `(c, k)`.  What makes a given `D` of this kind is
  stated as four facts about the coordinates of its operand indices, which a concrete record proves by unfolding its
  lists of axes.
-/
import Idealize.ShloMosaic.Lib.ValueIdx
import Idealize.ShloMosaic.PureOps.Ideal.Laws

noncomputable section

open scoped BigOperators

namespace Cert.Lib.DotNT

open Idealize.ShloMosaic Idealize.ShloMosaic.ValueIdx

/-- The contraction sum re-indexed by the contracted axis' coordinate: at the output index `j` the left operand is
    read along its row `j 0` and the right operand along its row `j 1`. -/
theorem sum_nt {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers, at the ideal instance: the accumulator's entry plus that sum. -/
theorem matmul_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (acc : FVec Ideal (⟨2, ![M, N]⟩ : Shape) .f32) (j : (⟨2, ![M, N]⟩ : Shape).Idx) :
    FloatOps.matmul D prec l r acc j = acc j + ∑ k : Fin K, l (ix2 (j 0) k) * r (ix2 (j 1) k) := by
  rw [Ideal.matmul_apply]
  exact congrArg (acc j + ·) (sum_nt D hr hs l0 l1 r0 r1 l r j)

/-- Into the zero accumulator: just the sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_nt D hr hs l0 l1 r0 r1 l r j

/-- A host `dot_general` with such dimension numbers, at the ideal instance, is the same sum, whatever its precision
    and schedule keys. -/
theorem dotGeneral_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision) (sched : HostSchedule)
    (l : FVec Ideal (⟨2, ![M, K]⟩ : Shape) φ₁) (r : FVec Ideal (⟨2, ![N, K]⟩ : Shape) φ₂)
    (j : (⟨2, ![M, N]⟩ : Shape).Idx) :
    FloatOps.dotGeneral D prec sched l r j = ∑ k : Fin K, l (ix2 (j 0) k) * r (ix2 (j 1) k) := by
  rw [Ideal.dotGeneral_apply]
  exact sum_nt D hr hs l0 l1 r0 r1 l r j

end Cert.Lib.DotNT

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.LibUnitAxes.lean ====
/-
  Unit axes inserted by a shape cast and filled by a broadcast, read at an index.

  Broadcasting a matrix along a new axis is written, on vectors, as a shape cast that inserts an axis of extent one
  followed by a broadcast along that axis. Read at an index `(i, j, k)` of the rank-3 result, the composite is the matrix
  at the two coordinates it keeps: `(i, k)` when the new axis is the middle one, `(j, k)` when it leads, `(i, j)` when it
  trails. The casts keep row-major positions (an axis of extent one contributes the digit zero); the broadcasts read
  coordinate zero on the unit axis and the result's own coordinate elsewhere.
-/
import Idealize.ShloMosaic.Lib.ValueIdx
import Idealize.ShloMosaic.Lib.ValueLayout
import Idealize.ShloMosaic.Lib.Pipeline.Value

namespace Idealize.ShloMosaic.UnitAxes

open Idealize.ShloMosaic Idealize.ShloMosaic.ValueIdx

variable {α : Type}

/-! ## The casts -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The broadcasts -/

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## A matrix broadcast along a new axis -/

/-- A matrix over `(i, k)` repeated along a new MIDDLE axis. -/
theorem along_middle {a b c : ℕ} (y : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ y h) h' (ix3 i j k) = y (ix2 i k) :=
  (broadcastTo_a1c_abc_apply _ h' i j k).trans (shapeCast_ac_a1c_apply y h i 0 k)

/-- A matrix over `(j, k)` repeated along a new LEADING axis. -/
theorem along_leading {a b c : ℕ} (y : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ y h) h' (ix3 i j k) = y (ix2 j k) :=
  (broadcastTo_1bc_abc_apply _ h' i j k).trans (shapeCast_ab_1ab_apply y h 0 j k)

/-- A matrix over `(i, j)` repeated along a new TRAILING axis. -/
theorem along_trailing {a b c : ℕ} (y : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ y h) h' (ix3 i j k) = y (ix2 i j) :=
  (broadcastTo_ab1_abc_apply _ h' i j k).trans (shapeCast_ab_ab1_apply y h i j 0)

end Idealize.ShloMosaic.UnitAxes
-- ==== Proof.Payloads.lean ====
/-
  What each kernel body computes, read at one index over the extended reals.

  The projection body forms x · W + b for a 512-row tile of x against the packed [1024, 3072] weight and cuts the result
  into three blocks of 1024 lanes; the attention body takes a tile of 512 query rows against 2048 keys and values of one
  (batch, head) pair and forms the max-shifted exponentials, their contraction with the values and the quotient by their
  sum; the output body forms x · W + b for a 512-row tile. Over the extended reals the format changes are the identity,
  so each entry is the textbook expression in the entries of the operands.
-/
import proofs.«169357_j53094385713646_2_alg».proof.Proof.Gen.KernelIdeal.Skeleton
import proofs.«169357_j53094385713646_2_alg».proof.Proof.Spec
import proofs.«169357_j53094385713646_2_alg».proof.Proof.LibPlainDot
import proofs.«169357_j53094385713646_2_alg».proof.Proof.LibDotNT
import proofs.«169357_j53094385713646_2_alg».proof.Proof.LibKeepdims
import proofs.«169357_j53094385713646_2_alg».proof.Proof.LibUnitAxes
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.Pay

open Idealize.ShloMosaic Idealize.SL.Sem Idealize.ShloMosaic.ValueIdx
open Cert.KernelIdeal

/-! ## The three products read at an index -/

theorem dot_qkv_apply (l : FVec Ideal S512x1024 .bf16) (w : FVec Ideal S1024x3072 .bf16) (i : Fin 512) (c : Fin 3072) :
    FloatOps.matmul dot_S512x1024_S1024x3072_S512x3072_1_0_0_1_n_n none l w (constant S512x3072 .f32 0x00000000#32) (ix2 i c)
      = ∑ k : Fin 1024, l (ix2 i k) * w (ix2 k c) :=
  Cert.Lib.PlainDot.matmul_zero_apply _ rfl rfl (fun _ _ => rfl) (fun _ _ => rfl) (fun _ _ => rfl) (fun _ _ => rfl) none l w (ix2 i c)

theorem dot_out_apply (l : FVec Ideal S512x1024 .bf16) (w : FVec Ideal S1024x1024 .bf16) (i : Fin 512) (c : Fin 1024) :
    FloatOps.matmul dot_S512x1024_S1024x1024_S512x1024_1_0_0_1_n_n none l w (constant S512x1024 .f32 0x00000000#32) (ix2 i c)
      = ∑ k : Fin 1024, l (ix2 i k) * w (ix2 k c) :=
  Cert.Lib.PlainDot.matmul_zero_apply _ rfl rfl (fun _ _ => rfl) (fun _ _ => rfl) (fun _ _ => rfl) (fun _ _ => rfl) none l w (ix2 i c)

/-! ## The fused projection: one row of x against one column of the packed weight, plus the packed bias -/

theorem pay_qkv (X : Vec Ideal S512x1024 .f32) (Wt : Vec Ideal S1024x3072 .bf16) (B : Vec Ideal S1x3072 .f32) (r : Fin 512) (c : Fin 3072) :
    Gen.k0_pay1 X Wt B (ix2 r c) = (∑ d : Fin 1024, X (ix2 r d) * Wt (ix2 d c)) + B (ix2 0 c) := by
  unfold Gen.k0_pay1
  rw [shapeCast_self, shapeCast_self, shapeCast_self]
  refine (truncf_apply (ψ := .bf16) _ Gen.bitsLt_bf16_f32 (ix2 r c)).trans ((addf_apply _ _ _).trans ?_)
  exact congrArg₂ (fun a b : EReal => a + b)
    ((dot_qkv_apply _ _ r c).trans (Finset.sum_congr rfl fun k _ => rfl)) (broadcastTo_1b_ab_apply _ _ r c)

theorem pay_q (X : Vec Ideal S512x1024 .f32) (Wt : Vec Ideal S1024x3072 .bf16) (B : Vec Ideal S1x3072 .f32) (r : Fin 512) (e : Fin 1024) :
    Gen.k0_pay2 X Wt B (ix2 r e)
      = (∑ d : Fin 1024, X (ix2 r d) * Wt (ix2 d ⟨e.val, by omega⟩)) + B (ix2 0 ⟨e.val, by omega⟩) := by
  unfold Gen.k0_pay2
  exact (slice2_axis1_apply 0 (Gen.k0_pay1 X Wt B) Gen.slices_S512x3072_o0_0_S512x1024 r e ⟨e.val, by omega⟩ (Nat.zero_add _).symm).trans
    (pay_qkv X Wt B r ⟨e.val, by omega⟩)

theorem pay_k (X : Vec Ideal S512x1024 .f32) (Wt : Vec Ideal S1024x3072 .bf16) (B : Vec Ideal S1x3072 .f32) (r : Fin 512) (e : Fin 1024) :
    Gen.k0_pay3 X Wt B (ix2 r e)
      = (∑ d : Fin 1024, X (ix2 r d) * Wt (ix2 d ⟨1024 + e.val, by omega⟩)) + B (ix2 0 ⟨1024 + e.val, by omega⟩) := by
  unfold Gen.k0_pay3
  exact (slice2_axis1_apply 1024 (Gen.k0_pay1 X Wt B) Gen.slices_S512x3072_o0_1024_S512x1024 r e ⟨1024 + e.val, by omega⟩ rfl).trans
    (pay_qkv X Wt B r ⟨1024 + e.val, by omega⟩)

theorem pay_v (X : Vec Ideal S512x1024 .f32) (Wt : Vec Ideal S1024x3072 .bf16) (B : Vec Ideal S1x3072 .f32) (r : Fin 512) (e : Fin 1024) :
    Gen.k0_pay4 X Wt B (ix2 r e)
      = (∑ d : Fin 1024, X (ix2 r d) * Wt (ix2 d ⟨2048 + e.val, by omega⟩)) + B (ix2 0 ⟨2048 + e.val, by omega⟩) := by
  unfold Gen.k0_pay4
  exact (slice2_axis1_apply 2048 (Gen.k0_pay1 X Wt B) Gen.slices_S512x3072_o0_2048_S512x1024 r e ⟨2048 + e.val, by omega⟩ rfl).trans
    (pay_qkv X Wt B r ⟨2048 + e.val, by omega⟩)

/-! ## The output layer -/

theorem pay_out (X : Vec Ideal S512x1024 .f32) (Wt : Vec Ideal S1024x1024 .bf16) (B : Vec Ideal S1x1024 .f32) (r : Fin 512) (e : Fin 1024) :
    Gen.k2_pay1 X Wt B (ix2 r e) = (∑ d : Fin 1024, X (ix2 r d) * Wt (ix2 d e)) + B (ix2 0 e) := by
  unfold Gen.k2_pay1
  rw [shapeCast_self, shapeCast_self, shapeCast_self]
  refine (addf_apply _ _ _).trans ?_
  exact congrArg₂ (fun a b : EReal => a + b)
    ((dot_out_apply _ _ r e).trans (Finset.sum_congr rfl fun k _ => rfl)) (broadcastTo_1b_ab_apply _ _ r e)

/-! ## The attention tile -/

/-- The index a reduction over the key axis inserts: row `r`, key `k`. -/
theorem lift_row (h : S512x2048.Reduces [(1 : Fin 2)] S512) (r : Fin 512) (k : Fin 2048) :
    h.lift (ix1 r) k = ix2 r k := by
  funext a
  match a with
  | ⟨0, _⟩ => exact Fin.ext rfl
  | ⟨1, _⟩ => exact Fin.ext rfl

/-- Queries against keys: entry `(r, sk)` is the sum over the 64 head coordinates. -/
theorem dot_qk_apply (l : FVec Ideal S512x64 .bf16) (w : FVec Ideal S2048x64 .bf16) (r : Fin 512) (sk : Fin 2048) :
    FloatOps.matmul dot_S512x64_S2048x64_S512x2048_1_1_0_0_n_n none l w (constant S512x2048 .f32 0x00000000#32) (ix2 r sk)
      = ∑ j : Fin 64, l (ix2 r j) * w (ix2 sk j) :=
  Cert.Lib.DotNT.matmul_zero_apply _ rfl rfl (fun _ _ => rfl) (fun _ _ => rfl) (fun _ _ => rfl) (fun _ _ => rfl) none l w (ix2 r sk)

/-- Weights against values: entry `(r, j)` is the sum over the 2048 keys. -/
theorem dot_pv_apply (l : FVec Ideal S512x2048 .bf16) (w : FVec Ideal S2048x64 .bf16) (r : Fin 512) (j : Fin 64) :
    FloatOps.matmul dot_S512x2048_S2048x64_S512x64_1_0_0_1_n_n none l w (constant S512x64 .f32 0x00000000#32) (ix2 r j)
      = ∑ sk : Fin 2048, l (ix2 r sk) * w (ix2 sk j) :=
  Cert.Lib.PlainDot.matmul_zero_apply _ rfl rfl (fun _ _ => rfl) (fun _ _ => rfl) (fun _ _ => rfl) (fun _ _ => rfl) none l w (ix2 r j)

/-- The maximum of row `r`, folded from the accumulator's value. -/
theorem rowmax_apply (s : FVec Ideal S512x2048 .f32) (r : Fin 512) :
    multiReduction .maximumf [1] S512 s 0xFF800000#32 Gen.reduces_S512x2048_S512 (.inl rfl) rfl (ix1 r)
      = Finset.univ.fold max (Ideal.ofBits .f32 0xFF800000#32) (fun sk : Fin 2048 => s (ix2 r sk)) := by
  refine (Ideal.multiReduction_maximumf_single s 0xFF800000#32 Gen.reduces_S512x2048_S512 (.inl rfl) rfl (ix1 r)).trans ?_
  show Finset.univ.fold max (Ideal.ofBits .f32 0xFF800000#32)
      (fun sk : Fin 2048 => s (Gen.reduces_S512x2048_S512.lift (ix1 r) sk)) = _
  exact congrArg (Finset.univ.fold max (Ideal.ofBits .f32 0xFF800000#32))
    (funext fun sk => congrArg s (lift_row _ r sk))

/-- The sum of row `r`. -/
theorem rowsum_apply (s : FVec Ideal S512x2048 .f32) (r : Fin 512) :
    multiReduction .add [1] S512 s 0x00000000#32 Gen.reduces_S512x2048_S512 (.inl rfl) rfl (ix1 r)
      = ∑ sk : Fin 2048, s (ix2 r sk) := by
  refine (Ideal.multiReduction_add_single s 0x00000000#32 Gen.reduces_S512x2048_S512 (.inl rfl) rfl (ix1 r)).trans ?_
  show ∑ sk : Fin 2048, s (Gen.reduces_S512x2048_S512.lift (ix1 r) sk) = _
  exact Finset.sum_congr rfl fun sk _ => congrArg s (lift_row _ r sk)

/-- The scores of the tile: the scaled query row against key `sk`. -/
theorem scores_apply (Q : Vec Ideal S1x512x64 .bf16) (K : Vec Ideal S1x2048x64 .bf16) (r : Fin 512) (sk : Fin 2048) :
    matmul (F := Ideal) (φ₁ := .bf16) (φ₂ := .bf16) dot_S512x64_S2048x64_S512x2048_1_1_0_0_n_n none
      (truncf .bf16 (mulf (extf .f32 (shapeCast S512x64 Q Gen.shapeCasts_S1x512x64_S512x64) Gen.bitsLt_bf16_f32)
        (broadcast S512x64 (Scalar.ofBits .f32 0x3E000000#32))) Gen.bitsLt_bf16_f32)
      (shapeCast S2048x64 K Gen.shapeCasts_S1x2048x64_S2048x64) (constant S512x2048 .f32 0x00000000#32) (ix2 r sk)
    = Cert.Attn.scoreK (fun j' => Q (ix3 0 r j')) (fun sk' j' => K (ix3 0 sk' j')) sk := by
  refine (dot_qk_apply _ _ r sk).trans ?_
  unfold Cert.Attn.scoreK Cert.Attn.c8
  refine Finset.sum_congr rfl fun j _ => ?_
  refine congrArg₂ (fun a b : EReal => a * b) ?_ (shapeCast_1ab_ab_apply K Gen.shapeCasts_S1x2048x64_S2048x64 sk j)
  show (shapeCast S512x64 Q Gen.shapeCasts_S1x512x64_S512x64 (ix2 r j)) * Ideal.ofBits .f32 0x3E000000#32 = _
  exact congrArg (fun a : EReal => a * Ideal.ofBits .f32 0x3E000000#32)
    (shapeCast_1ab_ab_apply Q Gen.shapeCasts_S1x512x64_S512x64 r j)

/-- The exponentials of a score matrix shifted by its row maxima. -/
def expTile (s : FVec Ideal S512x2048 .f32) : FVec Ideal S512x2048 .f32 :=
  exp (subf s (broadcastTo S512x2048
    (shapeCast S512x1 (multiReduction .maximumf [1] S512 s 0xFF800000#32 Gen.reduces_S512x2048_S512 (.inl rfl) rfl)
      Gen.shapeCasts_S512_S512x1) Gen.broadcasts_S512x1_S512x2048))

/-- With row `r` of the scores named `σ`, entry `(r, sk)` of the exponentials is `exp (σ sk − max σ)`. -/
theorem expTile_apply (s : FVec Ideal S512x2048 .f32) (r : Fin 512) (sk : Fin 2048) (σ : Fin 2048 → EReal)
    (hσ : ∀ sk', s (ix2 r sk') = σ sk') :
    expTile s (ix2 r sk) = Ideal.exp (σ sk - Finset.univ.fold max (Ideal.ofBits .f32 0xFF800000#32) σ) := by
  have e : (fun sk' : Fin 2048 => s (ix2 r sk')) = σ := funext hσ
  unfold expTile
  show Ideal.exp (s (ix2 r sk) - broadcastTo S512x2048 _ Gen.broadcasts_S512x1_S512x2048 (ix2 r sk)) = _
  refine congrArg Ideal.exp (congrArg₂ (fun a b : EReal => a - b) (hσ sk) ?_)
  refine (Keepdims.broadcastTo_a1_ab_apply _ Gen.broadcasts_S512x1_S512x2048 r sk).trans ?_
  refine (Keepdims.shapeCast_a_a1_apply _ Gen.shapeCasts_S512_S512x1 r).trans ?_
  exact (rowmax_apply s r).trans (congrArg (Finset.univ.fold max (Ideal.ofBits .f32 0xFF800000#32)) e)

/-- The tile after the scores. For a score matrix `s` and values `vv`, with row `r` of `s` named `σ` and column `j` of
    `vv` named `w`, entry `(0, r, j)` is the contraction of the exponentials with `w` divided by the exponentials' sum. -/
theorem attn_of_scores (s : FVec Ideal S512x2048 .f32) (vv : FVec Ideal S2048x64 .bf16) (r : Fin 512) (j : Fin 64)
    (σ w : Fin 2048 → EReal) (hσ : ∀ sk, s (ix2 r sk) = σ sk) (hw : ∀ sk, vv (ix2 sk j) = w sk) :
    shapeCast S1x512x64
      (divf
        (matmul dot_S512x2048_S2048x64_S512x64_1_0_0_1_n_n none
          (truncf .bf16 (expTile s) Gen.bitsLt_bf16_f32) vv (constant S512x64 .f32 0x00000000#32))
        (broadcastTo S512x64
          (shapeCast S512x1
            (multiReduction .add [1] S512 (expTile s) 0x00000000#32 Gen.reduces_S512x2048_S512 (.inl rfl) rfl)
            Gen.shapeCasts_S512_S512x1) Gen.broadcasts_S512x1_S512x64))
      Gen.shapeCasts_S512x64_S1x512x64 (ix3 0 r j)
    = Ideal.div (∑ sk, Ideal.exp (σ sk - Finset.univ.fold max (Ideal.ofBits .f32 0xFF800000#32) σ) * w sk)
        (∑ sk, Ideal.exp (σ sk - Finset.univ.fold max (Ideal.ofBits .f32 0xFF800000#32) σ)) := by
  have hE : ∀ sk, expTile s (ix2 r sk) = Ideal.exp (σ sk - Finset.univ.fold max (Ideal.ofBits .f32 0xFF800000#32) σ) :=
    fun sk => expTile_apply s r sk σ hσ
  refine (shapeCast_ab_1ab_apply _ Gen.shapeCasts_S512x64_S1x512x64 0 r j).trans ?_
  refine (divf_apply _ _ (ix2 r j)).trans ?_
  refine congrArg₂ Ideal.div ?_ ?_
  · refine (dot_pv_apply _ vv r j).trans (Finset.sum_congr rfl fun sk _ => ?_)
    exact congrArg₂ (fun a b : EReal => a * b) (hE sk) (hw sk)
  · refine (Keepdims.broadcastTo_a1_ab_apply _ Gen.broadcasts_S512x1_S512x64 r j).trans ?_
    refine (Keepdims.shapeCast_a_a1_apply _ Gen.shapeCasts_S512_S512x1 r).trans ?_
    exact (rowsum_apply (expTile s) r).trans (Finset.sum_congr rfl fun sk _ => hE sk)

/-- One entry of the attention tile is the kernel form of attention of query row `r` against the tile's keys and values. -/
theorem pay_attn (Q : Vec Ideal S1x512x64 .bf16) (K V : Vec Ideal S1x2048x64 .bf16) (r : Fin 512) (j : Fin 64) :
    Gen.k1_pay1 Q K V (ix3 0 r j)
      = Cert.Attn.attnK (fun j' => Q (ix3 0 r j')) (fun sk j' => K (ix3 0 sk j')) (fun sk j' => V (ix3 0 sk j')) j := by
  unfold Gen.k1_pay1
  exact attn_of_scores _ (shapeCast S2048x64 V Gen.shapeCasts_S1x2048x64_S2048x64) r j
    (Cert.Attn.scoreK (fun j' => Q (ix3 0 r j')) (fun sk j' => K (ix3 0 sk j'))) (fun sk => V (ix3 0 sk j))
    (fun sk => scores_apply Q K r sk) (fun sk => shapeCast_1ab_ab_apply V Gen.shapeCasts_S1x2048x64_S2048x64 sk j)

end Cert.KernelIdeal.Pay
end
-- ==== Proof.IdealFinal0.lean ====
/-
  The fused projection's three output arrays. Each grid point writes back one 512-row block of each output; block t
  starts at row 512·t and the eight blocks tile the [4096, 1024] arrays, so each array ends as one function of the
  region's three input arrays: row R, lane e of output n is (∑ d, X[R, d] · Wt[d, 1024·n + e]) + B[0, 1024·n + e],
  the n-th 1024-lane third of the packed [1024, 3072] weight and [1, 3072] bias. The input row block moves with the
  output blocks; the weight and the bias row are the same whole arrays at every point.
-/
import proofs.«169357_j53094385713646_2_alg».proof.Proof.IdealRegion0
import proofs.«169357_j53094385713646_2_alg».proof.Proof.Payloads
import proofs.«169357_j53094385713646_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero0 : (![0, 0] : Fin 2 → Nat) = fun _ => 0 := funext fun a => by fin_cases a <;> rfl

/-- Row `R`, lane `e` of the first third of the fused projection: `(∑ d, X[R, d] · Wt[d, e]) + B[0, e]`. -/
def Gq (X : S4096x1024.Idx → EReal) (Wt : S1024x3072.Idx → EReal) (B : S1x3072.Idx → EReal) : S4096x1024.Idx → EReal :=
  fun i => (∑ d : Fin 1024, X (ix2 (⟨(i 0).val, idx2_lt0 i⟩ : Fin 4096) d)
      * Wt (ix2 d (⟨(i 1).val, by have := idx2_lt1 i; omega⟩ : Fin 3072)))
    + B (ix2 (0 : Fin 1) (⟨(i 1).val, by have := idx2_lt1 i; omega⟩ : Fin 3072))

/-- The second third: columns `1024 + e` of the packed weight and bias. -/
def Gk (X : S4096x1024.Idx → EReal) (Wt : S1024x3072.Idx → EReal) (B : S1x3072.Idx → EReal) : S4096x1024.Idx → EReal :=
  fun i => (∑ d : Fin 1024, X (ix2 (⟨(i 0).val, idx2_lt0 i⟩ : Fin 4096) d)
      * Wt (ix2 d (⟨1024 + (i 1).val, by have := idx2_lt1 i; omega⟩ : Fin 3072)))
    + B (ix2 (0 : Fin 1) (⟨1024 + (i 1).val, by have := idx2_lt1 i; omega⟩ : Fin 3072))

/-- The last third: columns `2048 + e`. -/
def Gv (X : S4096x1024.Idx → EReal) (Wt : S1024x3072.Idx → EReal) (B : S1x3072.Idx → EReal) : S4096x1024.Idx → EReal :=
  fun i => (∑ d : Fin 1024, X (ix2 (⟨(i 0).val, idx2_lt0 i⟩ : Fin 4096) d)
      * Wt (ix2 d (⟨2048 + (i 1).val, by have := idx2_lt1 i; omega⟩ : Fin 3072)))
    + B (ix2 (0 : Fin 1) (⟨2048 + (i 1).val, by have := idx2_lt1 i; omega⟩ : Fin 3072))

/-- The printed index maps over the eight grid points: the input row block and the three output blocks are block `t`;
    the weight and the bias are block 0 on both axes. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What grid point `t` writes back into output 0 is block `t` of `Gq` of the arrays the region is entered with. -/
theorem flushed0_3_eq (c : Dev nD) (t : Fin cfg0.N) :
    (dat0 V c).flushed 3 t = ((cfg0.win 3).blk t).view.read (Elt Ideal) (Gq (V c main_v0) (V c main_v5) (V c main_v7)) := by
  show (cfg0.win 3).cut (grid0.coords t) ((dat0 V c).after 3 t) = _
  rw [after0_3]
  unfold out0_3
  rw [View.canon_unit_zero zero0]
  simp only [View.ld_unit_zero (S := S512x1024) zero0, View.ld_unit_zero (S := S1024x3072) zero0, View.ld_unit_zero (S := S1x3072) zero0]
  obtain ⟨e0, e1, e2, e3, e4, e5, e6, e7, e8, e9, e10, e11⟩ := idx0_facts t
  funext j
  obtain ⟨p, q, rfl⟩ : ∃ (p : Fin 512) (q : Fin 1024), j = ix2 p q := ⟨j 0, j 1, eq_ix2 j⟩
  show k0_pay2 (iblk0 V c 0 t) (iblk0 V c 1 t) (iblk0 V c 2 t) (ix2 p q)
    = Gq (V c main_v0) (V c main_v5) (V c main_v7) (((cfg0.win 3).blk t).view.emb (ix2 p q))
  refine (Cert.KernelIdeal.Pay.pay_q (iblk0 V c 0 t) (iblk0 V c 1 t) (iblk0 V c 2 t) p q).trans ?_
  unfold Gq
  refine congrArg₂ (· + ·) (Finset.sum_congr rfl fun d _ => congrArg₂ (· * ·) ?_ ?_) ?_
  · show V c main_v0 (((cfg0.win 0).blk t).view.emb (ix2 p d)) = V c main_v0 _
    refine congrArg (V c main_v0) ?_
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * d.val = d.val; omega
  · show V c main_v5 (((cfg0.win 1).blk t).view.emb (ix2 d _)) = V c main_v5 _
    refine congrArg (V c main_v5) ?_
    funext a; apply Fin.ext
    match a with
    | ⟨0, _⟩ => show win0_1.index t (0 : Fin 2) * 1024 + 1 * d.val = d.val; omega
    | ⟨1, _⟩ => show win0_1.index t (1 : Fin 2) * 3072 + 1 * (q.val) = (win0_3.index t (1 : Fin 2) * 1024 + 1 * q.val); omega
  · show V c main_v7 (((cfg0.win 2).blk t).view.emb (ix2 (0 : Fin 1) _)) = V c main_v7 _
    refine congrArg (V c main_v7) ?_
    funext a; apply Fin.ext
    match a with
    | ⟨0, _⟩ => show win0_2.index t (0 : Fin 2) * 1 + 1 * 0 = 0; omega
    | ⟨1, _⟩ => show win0_2.index t (1 : Fin 2) * 3072 + 1 * (q.val) = (win0_3.index t (1 : Fin 2) * 1024 + 1 * q.val); omega

/-- An index of output 0's array is in point `t`'s block iff each coordinate is in the block's range on its axis. -/
theorem mem_blk0_3 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v8_0).slice (win0_3.rect t)).set ↔ _
  rw [View.set_slice_whole, Rect.mem_set_unit]
  exact Iff.rfl

/-- Row `R` lies in the block of point `R / 512`: the eight blocks tile the array. -/
theorem tiles0_3 (i : S4096x1024.Idx) : ∃ t : Fin cfg0.N, (cfg0.win 3).flush t = true ∧ i ∈ ((cfg0.win 3).blk t).view.set := by
  have hi0 : (i 0).val < 4096 := idx2_lt0 i
  have hi1 : (i 1).val < 1024 := idx2_lt1 i
  have hN : grid0.N = 8 := N_0
  let t : Fin cfg0.N := ⟨(i 0).val / 512, by show (i 0).val / 512 < grid0.N; omega⟩
  obtain ⟨e0, e1, e2, e3, e4, e5, e6, e7, e8, e9, e10, e11⟩ := idx0_facts t
  have ht : t.val = (i 0).val / 512 := rfl
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- Output 0's array after the region: `Gq` of the three arrays the region is entered with. -/
theorem final0_3 (c : Dev nD) : (dat0 V c).arrAt 3 cfg0.N = Gq (V c main_v0) (V c main_v5) (V c main_v7) :=
  (dat0 V c).arrAt_eq_of_cover 3 _ (fun t _ => flushed0_3_eq V c t) tiles0_3

/-- What grid point `t` writes back into output 1 is block `t` of `Gk` of the arrays the region is entered with. -/
theorem flushed0_4_eq (c : Dev nD) (t : Fin cfg0.N) :
    (dat0 V c).flushed 4 t = ((cfg0.win 4).blk t).view.read (Elt Ideal) (Gk (V c main_v0) (V c main_v5) (V c main_v7)) := by
  show (cfg0.win 4).cut (grid0.coords t) ((dat0 V c).after 4 t) = _
  rw [after0_4]
  unfold out0_4
  rw [View.canon_unit_zero zero0]
  simp only [View.ld_unit_zero (S := S512x1024) zero0, View.ld_unit_zero (S := S1024x3072) zero0, View.ld_unit_zero (S := S1x3072) zero0]
  obtain ⟨e0, e1, e2, e3, e4, e5, e6, e7, e8, e9, e10, e11⟩ := idx0_facts t
  funext j
  obtain ⟨p, q, rfl⟩ : ∃ (p : Fin 512) (q : Fin 1024), j = ix2 p q := ⟨j 0, j 1, eq_ix2 j⟩
  show k0_pay3 (iblk0 V c 0 t) (iblk0 V c 1 t) (iblk0 V c 2 t) (ix2 p q)
    = Gk (V c main_v0) (V c main_v5) (V c main_v7) (((cfg0.win 4).blk t).view.emb (ix2 p q))
  refine (Cert.KernelIdeal.Pay.pay_k (iblk0 V c 0 t) (iblk0 V c 1 t) (iblk0 V c 2 t) p q).trans ?_
  unfold Gk
  refine congrArg₂ (· + ·) (Finset.sum_congr rfl fun d _ => congrArg₂ (· * ·) ?_ ?_) ?_
  · show V c main_v0 (((cfg0.win 0).blk t).view.emb (ix2 p d)) = V c main_v0 _
    refine congrArg (V c main_v0) ?_
    funext a; apply Fin.ext
    match a with
    | ⟨0, _⟩ => show win0_0.index t (0 : Fin 2) * 512 + 1 * p.val = win0_4.index t (0 : Fin 2) * 512 + 1 * p.val; omega
    | ⟨1, _⟩ => show win0_0.index t (1 : Fin 2) * 1024 + 1 * d.val = d.val; omega
  · show V c main_v5 (((cfg0.win 1).blk t).view.emb (ix2 d _)) = V c main_v5 _
    refine congrArg (V c main_v5) ?_
    funext a; apply Fin.ext
    match a with
    | ⟨0, _⟩ => show win0_1.index t (0 : Fin 2) * 1024 + 1 * d.val = d.val; omega
    | ⟨1, _⟩ => show win0_1.index t (1 : Fin 2) * 3072 + 1 * (1024 + q.val) = 1024 + (win0_4.index t (1 : Fin 2) * 1024 + 1 * q.val); omega
  · show V c main_v7 (((cfg0.win 2).blk t).view.emb (ix2 (0 : Fin 1) _)) = V c main_v7 _
    refine congrArg (V c main_v7) ?_
    funext a; apply Fin.ext
    match a with
    | ⟨0, _⟩ => show win0_2.index t (0 : Fin 2) * 1 + 1 * 0 = 0; omega
    | ⟨1, _⟩ => show win0_2.index t (1 : Fin 2) * 3072 + 1 * (1024 + q.val) = 1024 + (win0_4.index t (1 : Fin 2) * 1024 + 1 * q.val); omega

/-- An index of output 1's array is in point `t`'s block iff each coordinate is in the block's range on its axis. -/
theorem mem_blk0_4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v8_1).slice (win0_4.rect t)).set ↔ _
  rw [View.set_slice_whole, Rect.mem_set_unit]
  exact Iff.rfl

/-- Row `R` lies in the block of point `R / 512`: the eight blocks tile the array. -/
theorem tiles0_4 (i : S4096x1024.Idx) : ∃ t : Fin cfg0.N, (cfg0.win 4).flush t = true ∧ i ∈ ((cfg0.win 4).blk t).view.set := by
  have hi0 : (i 0).val < 4096 := idx2_lt0 i
  have hi1 : (i 1).val < 1024 := idx2_lt1 i
  have hN : grid0.N = 8 := N_0
  let t : Fin cfg0.N := ⟨(i 0).val / 512, by show (i 0).val / 512 < grid0.N; omega⟩
  obtain ⟨e0, e1, e2, e3, e4, e5, e6, e7, e8, e9, e10, e11⟩ := idx0_facts t
  have ht : t.val = (i 0).val / 512 := rfl
  refine ⟨t, flush0_4 t, ?_⟩
  rw [mem_blk0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- Output 1's array after the region: `Gk` of the three arrays the region is entered with. -/
theorem final0_4 (c : Dev nD) : (dat0 V c).arrAt 4 cfg0.N = Gk (V c main_v0) (V c main_v5) (V c main_v7) :=
  (dat0 V c).arrAt_eq_of_cover 4 _ (fun t _ => flushed0_4_eq V c t) tiles0_4

/-- What grid point `t` writes back into output 2 is block `t` of `Gv` of the arrays the region is entered with. -/
theorem flushed0_5_eq (c : Dev nD) (t : Fin cfg0.N) :
    (dat0 V c).flushed 5 t = ((cfg0.win 5).blk t).view.read (Elt Ideal) (Gv (V c main_v0) (V c main_v5) (V c main_v7)) := by
  show (cfg0.win 5).cut (grid0.coords t) ((dat0 V c).after 5 t) = _
  rw [after0_5]
  unfold out0_5
  rw [View.canon_unit_zero zero0]
  simp only [View.ld_unit_zero (S := S512x1024) zero0, View.ld_unit_zero (S := S1024x3072) zero0, View.ld_unit_zero (S := S1x3072) zero0]
  obtain ⟨e0, e1, e2, e3, e4, e5, e6, e7, e8, e9, e10, e11⟩ := idx0_facts t
  funext j
  obtain ⟨p, q, rfl⟩ : ∃ (p : Fin 512) (q : Fin 1024), j = ix2 p q := ⟨j 0, j 1, eq_ix2 j⟩
  show k0_pay4 (iblk0 V c 0 t) (iblk0 V c 1 t) (iblk0 V c 2 t) (ix2 p q)
    = Gv (V c main_v0) (V c main_v5) (V c main_v7) (((cfg0.win 5).blk t).view.emb (ix2 p q))
  refine (Cert.KernelIdeal.Pay.pay_v (iblk0 V c 0 t) (iblk0 V c 1 t) (iblk0 V c 2 t) p q).trans ?_
  unfold Gv
  refine congrArg₂ (· + ·) (Finset.sum_congr rfl fun d _ => congrArg₂ (· * ·) ?_ ?_) ?_
  · show V c main_v0 (((cfg0.win 0).blk t).view.emb (ix2 p d)) = V c main_v0 _
    refine congrArg (V c main_v0) ?_
    funext a; apply Fin.ext
    match a with
    | ⟨0, _⟩ => show win0_0.index t (0 : Fin 2) * 512 + 1 * p.val = win0_5.index t (0 : Fin 2) * 512 + 1 * p.val; omega
    | ⟨1, _⟩ => show win0_0.index t (1 : Fin 2) * 1024 + 1 * d.val = d.val; omega
  · show V c main_v5 (((cfg0.win 1).blk t).view.emb (ix2 d _)) = V c main_v5 _
    refine congrArg (V c main_v5) ?_
    funext a; apply Fin.ext
    match a with
    | ⟨0, _⟩ => show win0_1.index t (0 : Fin 2) * 1024 + 1 * d.val = d.val; omega
    | ⟨1, _⟩ => show win0_1.index t (1 : Fin 2) * 3072 + 1 * (2048 + q.val) = 2048 + (win0_5.index t (1 : Fin 2) * 1024 + 1 * q.val); omega
  · show V c main_v7 (((cfg0.win 2).blk t).view.emb (ix2 (0 : Fin 1) _)) = V c main_v7 _
    refine congrArg (V c main_v7) ?_
    funext a; apply Fin.ext
    match a with
    | ⟨0, _⟩ => show win0_2.index t (0 : Fin 2) * 1 + 1 * 0 = 0; omega
    | ⟨1, _⟩ => show win0_2.index t (1 : Fin 2) * 3072 + 1 * (2048 + q.val) = 2048 + (win0_5.index t (1 : Fin 2) * 1024 + 1 * q.val); omega

/-- An index of output 2's array is in point `t`'s block iff each coordinate is in the block's range on its axis. -/
theorem mem_blk0_5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v8_2).slice (win0_5.rect t)).set ↔ _
  rw [View.set_slice_whole, Rect.mem_set_unit]
  exact Iff.rfl

/-- Row `R` lies in the block of point `R / 512`: the eight blocks tile the array. -/
theorem tiles0_5 (i : S4096x1024.Idx) : ∃ t : Fin cfg0.N, (cfg0.win 5).flush t = true ∧ i ∈ ((cfg0.win 5).blk t).view.set := by
  have hi0 : (i 0).val < 4096 := idx2_lt0 i
  have hi1 : (i 1).val < 1024 := idx2_lt1 i
  have hN : grid0.N = 8 := N_0
  let t : Fin cfg0.N := ⟨(i 0).val / 512, by show (i 0).val / 512 < grid0.N; omega⟩
  obtain ⟨e0, e1, e2, e3, e4, e5, e6, e7, e8, e9, e10, e11⟩ := idx0_facts t
  have ht : t.val = (i 0).val / 512 := rfl
  refine ⟨t, flush0_5 t, ?_⟩
  rw [mem_blk0_5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- Output 2's array after the region: `Gv` of the three arrays the region is entered with. -/
theorem final0_5 (c : Dev nD) : (dat0 V c).arrAt 5 cfg0.N = Gv (V c main_v0) (V c main_v5) (V c main_v7) :=
  (dat0 V c).arrAt_eq_of_cover 5 _ (fun t _ => flushed0_5_eq V c t) tiles0_5

end Cert.KernelIdeal.Hand

end
-- ==== Proof.IdealFinal1.lean ====
/-
  The attention region's array. Grid point t = 4·bh + qi handles (batch, head) pair bh and query tile qi: it reads
  rows 512·qi … of pair bh's queries and the pair's whole key and value arrays, and writes back rows 512·qi … of pair
  bh's output. The 128 blocks tile the [32, 2048, 64] array, so the array ends as one function of the three input
  arrays: entry (bh, s, j) is coordinate j of the attention of query row s of pair bh against that pair's keys and values.
-/
import proofs.«169357_j53094385713646_2_alg».proof.Proof.IdealRegion1
import proofs.«169357_j53094385713646_2_alg».proof.Proof.Payloads
import proofs.«169357_j53094385713646_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero3 : (![0, 0, 0] : Fin 3 → Nat) = fun _ => 0 := funext fun a => by fin_cases a <;> rfl

/-- Coordinate `j` of the attention of query row `s` of pair `bh` against that pair's keys and values. -/
def attnAt (Q K V' : S32x2048x64.Idx → EReal) (bh : Fin 32) (s : Fin 2048) (j : Fin 64) : EReal :=
  Cert.Attn.attnK (fun j' => Q (ix3 bh s j')) (fun sk j' => K (ix3 bh sk j')) (fun sk j' => V' (ix3 bh sk j')) j

/-- The whole output array as a function of the three input arrays. -/
def Gattn (Q K V' : S32x2048x64.Idx → EReal) : S32x2048x64.Idx → EReal :=
  fun i => attnAt Q K V' (⟨(i 0).val, (i 0).isLt⟩ : Fin 32) (⟨(i 1).val, (i 1).isLt⟩ : Fin 2048) (⟨(i 2).val, (i 2).isLt⟩ : Fin 64)

/-- Attention of a query row against keys and values that are, entry by entry, rows of the three arrays. -/
theorem attnK_eq_attnAt (Q K V' : S32x2048x64.Idx → EReal) (A : Fin 64 → EReal) (B C : Fin 2048 → Fin 64 → EReal)
    (bh : Fin 32) (s : Fin 2048) (j q : Fin 64) (hA : ∀ j', A j' = Q (ix3 bh s j')) (hB : ∀ sk j', B sk j' = K (ix3 bh sk j'))
    (hC : ∀ sk j', C sk j' = V' (ix3 bh sk j')) (hq : q = j) : Cert.Attn.attnK A B C q = attnAt Q K V' bh s j := by
  obtain rfl : A = fun j' => Q (ix3 bh s j') := funext hA
  obtain rfl : B = fun sk j' => K (ix3 bh sk j') := funext fun sk => funext (hB sk)
  obtain rfl : C = fun sk j' => V' (ix3 bh sk j') := funext fun sk => funext (hC sk)
  subst hq
  rfl

/-- The printed index maps over the 128 grid points `t = 4·bh + qi`: queries and output are block `(bh, qi, 0)`, keys and
    values block `(bh, 0, 0)`. -/
theorem idx1_facts : ∀ t : Fin cfg1.N, win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- What grid point `t` writes back is block `t` of `Gattn` of the arrays the region is entered with. -/
theorem flushed1_3_eq (c : Dev nD) (t : Fin cfg1.N) :
    (dat1 V c).flushed 3 t = ((cfg1.win 3).blk t).view.read (Elt Ideal) (Gattn (V c main_v11) (V c main_v14) (V c main_v17)) := by
  show (cfg1.win 3).cut (grid1.coords t) ((dat1 V c).after 3 t) = _
  rw [after1_3]
  unfold out1_3
  rw [View.canon_unit_zero zero3]
  simp only [View.ld_unit_zero (S := S1x512x64) zero3, View.ld_unit_zero (S := S1x2048x64) zero3]
  obtain ⟨a0, a1, a2, b0, b1, b2, c0, c1, c2, d0, d1, d2⟩ := idx1_facts t
  funext j
  obtain ⟨z, p, q, rfl⟩ : ∃ (z : Fin 1) (p : Fin 512) (q : Fin 64), j = ix3 z p q := ⟨j 0, j 1, j 2, eq_ix3 j⟩
  obtain rfl : z = 0 := Subsingleton.elim _ _
  show k1_pay1 (iblk1 V c 0 t) (iblk1 V c 1 t) (iblk1 V c 2 t) (ix3 (0 : Fin 1) p q)
    = Gattn (V c main_v11) (V c main_v14) (V c main_v17) (((cfg1.win 3).blk t).view.emb (ix3 (0 : Fin 1) p q))
  refine (Cert.KernelIdeal.Pay.pay_attn (iblk1 V c 0 t) (iblk1 V c 1 t) (iblk1 V c 2 t) p q).trans ?_
  unfold Gattn
  refine attnK_eq_attnAt _ _ _ _ _ _ _ _ _ _ (fun j' => ?_) (fun sk j' => ?_) (fun sk j' => ?_) ?_
  · show V c main_v11 (((cfg1.win 0).blk t).view.emb (ix3 (0 : Fin 1) p j')) = V c main_v11 _
    refine congrArg (V c main_v11) ?_
    funext a; apply Fin.ext
    match a with
    | ⟨0, _⟩ => show win1_0.index t (0 : Fin 3) * 1 + 1 * 0 = win1_3.index t (0 : Fin 3) * 1 + 1 * 0; omega
    | ⟨1, _⟩ => show win1_0.index t (1 : Fin 3) * 512 + 1 * p.val = win1_3.index t (1 : Fin 3) * 512 + 1 * p.val; omega
    | ⟨2, _⟩ => show win1_0.index t (2 : Fin 3) * 64 + 1 * j'.val = j'.val; omega
  · show V c main_v14 (((cfg1.win 1).blk t).view.emb (ix3 (0 : Fin 1) sk j')) = V c main_v14 _
    refine congrArg (V c main_v14) ?_
    funext a; apply Fin.ext
    match a with
    | ⟨0, _⟩ => show win1_1.index t (0 : Fin 3) * 1 + 1 * 0 = win1_3.index t (0 : Fin 3) * 1 + 1 * 0; omega
    | ⟨1, _⟩ => show win1_1.index t (1 : Fin 3) * 2048 + 1 * sk.val = sk.val; omega
    | ⟨2, _⟩ => show win1_1.index t (2 : Fin 3) * 64 + 1 * j'.val = j'.val; omega
  · show V c main_v17 (((cfg1.win 2).blk t).view.emb (ix3 (0 : Fin 1) sk j')) = V c main_v17 _
    refine congrArg (V c main_v17) ?_
    funext a; apply Fin.ext
    match a with
    | ⟨0, _⟩ => show win1_2.index t (0 : Fin 3) * 1 + 1 * 0 = win1_3.index t (0 : Fin 3) * 1 + 1 * 0; omega
    | ⟨1, _⟩ => show win1_2.index t (1 : Fin 3) * 2048 + 1 * sk.val = sk.val; omega
    | ⟨2, _⟩ => show win1_2.index t (2 : Fin 3) * 64 + 1 * j'.val = j'.val; omega
  · apply Fin.ext
    show q.val = win1_3.index t (2 : Fin 3) * 64 + 1 * q.val
    omega

/-- An index of the array is in point `t`'s block iff each coordinate is in the block's range on its axis. -/
theorem mem_blk1_3 (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v18).slice (win1_3.rect t)).set ↔ _
  rw [View.set_slice_whole, Rect.mem_set_unit]
  exact Iff.rfl

/-- Entry `(bh, s, j)` lies in the block of point `4·bh + s / 512`: the 128 blocks tile the array. -/
theorem tiles1_3 (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hN : grid1.N = 128 := N_1
  let t : Fin cfg1.N := ⟨(i 0).val * 4 + (i 1).val / 512, by show (i 0).val * 4 + (i 1).val / 512 < grid1.N; omega⟩
  obtain ⟨a0, a1, a2, b0, b1, b2, c0, c1, c2, d0, d1, d2⟩ := idx1_facts t
  have ht : t.val = (i 0).val * 4 + (i 1).val / 512 := rfl
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The output array after the region: `Gattn` of the three arrays the region is entered with. -/
theorem final1_3 (c : Dev nD) : (dat1 V c).arrAt 3 cfg1.N = Gattn (V c main_v11) (V c main_v14) (V c main_v17) :=
  (dat1 V c).arrAt_eq_of_cover 3 _ (fun t _ => flushed1_3_eq V c t) tiles1_3

end Cert.KernelIdeal.Hand

end
-- ==== Proof.IdealFinal2.lean ====
/-
  The output projection's array. Each grid point writes back one 512-row block; block t starts at row 512·t and the
  eight blocks tile the [4096, 1024] array, so the array ends as one function of the region's three input arrays:
  row R, lane e is (∑ d, X[R, d] · Wt[d, e]) + B[0, e]. The input row block moves with the output block; the weight and
  the bias row are the same whole arrays at every point.
-/
import proofs.«169357_j53094385713646_2_alg».proof.Proof.IdealRegion2
import proofs.«169357_j53094385713646_2_alg».proof.Proof.Payloads
import proofs.«169357_j53094385713646_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- Row `R`, lane `e` of a linear layer whose weight is stored input-lane-major: `(∑ d, X[R, d] · Wt[d, e]) + B[0, e]`. -/
def Gout (X : S4096x1024.Idx → EReal) (Wt : S1024x1024.Idx → EReal) (B : S1x1024.Idx → EReal) : S4096x1024.Idx → EReal :=
  fun i => (∑ d : Fin 1024, X (ix2 (⟨(i 0).val, idx2_lt0 i⟩ : Fin 4096) d) * Wt (ix2 d (⟨(i 1).val, idx2_lt1 i⟩ : Fin 1024)))
    + B (ix2 (0 : Fin 1) (⟨(i 1).val, idx2_lt1 i⟩ : Fin 1024))

/-- The printed index maps over the eight grid points: the input row block and the output block are block `t`; the
    weight and the bias are block 0 on both axes. -/
theorem idx2_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point `t` writes back is block `t` of `Gout` of the arrays the region is entered with. -/
theorem flushed2_3_eq (c : Dev nD) (t : Fin cfg2.N) :
    (dat2 V c).flushed 3 t = ((cfg2.win 3).blk t).view.read (Elt Ideal) (Gout (V c main_v21) (V c main_v23) (V c main_v24)) := by
  show (cfg2.win 3).cut (grid2.coords t) ((dat2 V c).after 3 t) = _
  rw [after2_3]
  unfold out2_3
  rw [View.canon_unit_zero zero2]
  simp only [View.ld_unit_zero (S := S512x1024) zero2, View.ld_unit_zero (S := S1024x1024) zero2, View.ld_unit_zero (S := S1x1024) zero2]
  obtain ⟨e0, e1, e2, e3, e4, e5, e6, e7⟩ := idx2_facts t
  funext j
  obtain ⟨p, q, rfl⟩ : ∃ (p : Fin 512) (q : Fin 1024), j = ix2 p q := ⟨j 0, j 1, eq_ix2 j⟩
  show k2_pay1 (iblk2 V c 0 t) (iblk2 V c 1 t) (iblk2 V c 2 t) (ix2 p q)
    = Gout (V c main_v21) (V c main_v23) (V c main_v24) (((cfg2.win 3).blk t).view.emb (ix2 p q))
  refine (Cert.KernelIdeal.Pay.pay_out (iblk2 V c 0 t) (iblk2 V c 1 t) (iblk2 V c 2 t) p q).trans ?_
  unfold Gout
  refine congrArg₂ (· + ·) (Finset.sum_congr rfl fun d _ => congrArg₂ (· * ·) ?_ ?_) ?_
  · show V c main_v21 (((cfg2.win 0).blk t).view.emb (ix2 p d)) = V c main_v21 _
    refine congrArg (V c main_v21) ?_
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * d.val = d.val; omega
  · show V c main_v23 (((cfg2.win 1).blk t).view.emb (ix2 d q)) = V c main_v23 _
    refine congrArg (V c main_v23) ?_
    funext a; apply Fin.ext
    match a with
    | ⟨0, _⟩ => show win2_1.index t (0 : Fin 2) * 1024 + 1 * d.val = d.val; omega
    | ⟨1, _⟩ => show win2_1.index t (1 : Fin 2) * 1024 + 1 * q.val = win2_3.index t (1 : Fin 2) * 1024 + 1 * q.val; omega
  · show V c main_v24 (((cfg2.win 2).blk t).view.emb (ix2 (0 : Fin 1) q)) = V c main_v24 _
    refine congrArg (V c main_v24) ?_
    funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + 1 * q.val; omega

/-- An index of the array is in point `t`'s block iff each coordinate is in the block's range on its axis. -/
theorem mem_blk2_3 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v25).slice (win2_3.rect t)).set ↔ _
  rw [View.set_slice_whole, Rect.mem_set_unit]
  exact Iff.rfl

/-- Row `R` lies in the block of point `R / 512`: the eight blocks tile the array. -/
theorem tiles2_3 (i : S4096x1024.Idx) : ∃ t : Fin cfg2.N, (cfg2.win 3).flush t = true ∧ i ∈ ((cfg2.win 3).blk t).view.set := by
  have hi0 : (i 0).val < 4096 := idx2_lt0 i
  have hi1 : (i 1).val < 1024 := idx2_lt1 i
  have hN : grid2.N = 8 := N_2
  let t : Fin cfg2.N := ⟨(i 0).val / 512, by show (i 0).val / 512 < grid2.N; omega⟩
  obtain ⟨e0, e1, e2, e3, e4, e5, e6, e7⟩ := idx2_facts t
  have ht : t.val = (i 0).val / 512 := rfl
  refine ⟨t, flush2_3 t, ?_⟩
  rw [mem_blk2_3]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The output array after the region: `Gout` of the three arrays the region is entered with. -/
theorem final2_3 (c : Dev nD) : (dat2 V c).arrAt 3 cfg2.N = Gout (V c main_v21) (V c main_v23) (V c main_v24) :=
  (dat2 V c).arrAt_eq_of_cover 3 _ (fun t _ => flushed2_3_eq V c t) tiles2_3

end Cert.KernelIdeal.Hand

end
-- ==== Proof.IdealStages.lean ====
/-
  Each region's output array, as the whole-array function of the arrays the region is entered with.
-/
import proofs.«169357_j53094385713646_2_alg».proof.Proof.IdealStagesHost
import proofs.«169357_j53094385713646_2_alg».proof.Proof.IdealFinal0
import proofs.«169357_j53094385713646_2_alg».proof.Proof.IdealFinal1
import proofs.«169357_j53094385713646_2_alg».proof.Proof.IdealFinal2

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem stage_v8_0 : W2 m ρ c (Proc.devRef .tc main_v8_0) = Gq (V1 m ρ c main_v0) (V1 m ρ c main_v5) (V1 m ρ c main_v7) :=
  (W2_arr m ρ c 3).trans (final0_3 (V1 m ρ) c)
theorem stage_v8_1 : W2 m ρ c (Proc.devRef .tc main_v8_1) = Gk (V1 m ρ c main_v0) (V1 m ρ c main_v5) (V1 m ρ c main_v7) :=
  (W2_arr m ρ c 4).trans (final0_4 (V1 m ρ) c)
theorem stage_v8_2 : W2 m ρ c (Proc.devRef .tc main_v8_2) = Gv (V1 m ρ c main_v0) (V1 m ρ c main_v5) (V1 m ρ c main_v7) :=
  (W2_arr m ρ c 5).trans (final0_5 (V1 m ρ) c)
theorem stage_v18 : W4 m ρ c (Proc.devRef .tc main_v18) = Gattn (V3 m ρ c main_v11) (V3 m ρ c main_v14) (V3 m ρ c main_v17) :=
  (W4_arr m ρ c 3).trans (final1_3 (V3 m ρ) c)
theorem stage_v25 : W6 m ρ c (Proc.devRef .tc main_v25) = Gout (V5 m ρ c main_v21) (V5 m ρ c main_v23) (V5 m ρ c main_v24) :=
  (W6_arr m ρ c 3).trans (final2_3 (V5 m ρ) c)

end Cert.KernelIdeal.Hand

end
-- ==== Proof.IdealLayout.lean ====
/-
  The host's layout operations, read at an index given by coordinates.

  A reshape keeps the row-major position: an index of [4096, 1024] at row R = b·2048 + s and lane e = h·64 + j has the
  position of (b, s, h, j) in [2, 2048, 16, 64], and an index (b, h, s, j) of [2, 16, 2048, 64] has the position of
  (b·16 + h, s, j) in [32, 2048, 64]. A transpose by the permutation [0, 2, 1, 3] swaps the two middle coordinates; a
  matrix transpose swaps the two. A concatenation of three pieces of extent 1024 along an axis reads, at coordinate
  1024·n + e of that axis, piece n at coordinate e. A change of float format is the identity at the ideal reading.
  Each statement below is one of these facts, or a composition of them, over an arbitrary element type and with the
  shape relations as arbitrary hypotheses.
-/
import proofs.«169357_j53094385713646_2_alg».proof.KernelIdeal
import proofs.«169357_j53094385713646_2_alg».proof.Proof.Spec
import Idealize.ShloMosaic.Lib.ValueIdx
import Idealize.ShloMosaic.Lib.Pipeline.Value
import Idealize.ShloMosaic.Lib.ValueLayout

noncomputable section

namespace Cert.KernelIdeal.Lay

open Idealize.ShloMosaic Idealize.ShloMosaic.ValueIdx

variable {α : Type}

/-! ## The transpose that swaps the two middle axes of a rank-4 array -/

theorem transpose_ix4_0213_apply {n0 n1 n2 n3 : ℕ} (x : (⟨4, ![n0, n1, n2, n3]⟩ : Shape).Idx → α)
    (h : (⟨4, ![n0, n1, n2, n3]⟩ : Shape).Transposes [0, 2, 1, 3] ⟨4, ![n0, n2, n1, n3]⟩)
    (a : Fin n0) (b : Fin n2) (c : Fin n1) (d : Fin n3) :
    transpose ⟨4, ![n0, n2, n1, n3]⟩ [0, 2, 1, 3] x h (ix4 a b c d) = x (ix4 a c b d) :=
  transpose_apply _ x h _ _ fun k => match k with | ⟨0, _⟩ => rfl | ⟨1, _⟩ => rfl | ⟨2, _⟩ => rfl | ⟨3, _⟩ => rfl

/-! ## The four reshapes between rows × lanes and batch × position × head × coordinate -/

/-- [4096, 1024] as [2, 2048, 16, 64]: (b, s, h, j) reads row b·2048 + s, lane 64·h + j. -/
theorem cast_rows_to_bshj (y : S4096x1024.Idx → α) (h : S4096x1024.ShapeCasts S2x2048x16x64)
    (b : Fin 2) (s : Fin 2048) (hd : Fin 16) (j : Fin 64) :
    shapeCast S2x2048x16x64 y h (ix4 b s hd j)
      = y (ix2 ⟨b.val * 2048 + s.val, by have := b.isLt; have := s.isLt; omega⟩ (Cert.Attn.lane hd j)) :=
  shapeCast_apply y h _ _ (by
    rw [Shape.rowMajor_val_two, Shape.rowMajor_val_four]
    show (b.val * 2048 + s.val) * 1024 + (hd.val * 64 + j.val) = ((b.val * 2048 + s.val) * 16 + hd.val) * 64 + j.val
    omega)

/-- [2, 16, 2048, 64] as [32, 2048, 64]: (bh, s, j) reads (bh / 16, bh % 16, s, j). -/
theorem cast_bhsj_to_heads (z : S2x16x2048x64.Idx → α) (h : S2x16x2048x64.ShapeCasts S32x2048x64)
    (bh : Fin 32) (s : Fin 2048) (j : Fin 64) :
    shapeCast S32x2048x64 z h (ix3 bh s j)
      = z (ix4 (⟨bh.val / 16, by have := bh.isLt; omega⟩ : Fin 2) (⟨bh.val % 16, Nat.mod_lt _ (by decide)⟩ : Fin 16) s j) :=
  shapeCast_apply z h _ _ (by
    rw [Shape.rowMajor_val_four, Shape.rowMajor_val_three]
    show ((bh.val / 16 * 16 + bh.val % 16) * 2048 + s.val) * 64 + j.val = (bh.val * 2048 + s.val) * 64 + j.val
    omega)

/-- [32, 2048, 64] as [2, 16, 2048, 64]: (b, h, s, j) reads (b·16 + h, s, j). -/
theorem cast_heads_to_bhsj (o : S32x2048x64.Idx → α) (h : S32x2048x64.ShapeCasts S2x16x2048x64)
    (b : Fin 2) (hd : Fin 16) (s : Fin 2048) (j : Fin 64) :
    shapeCast S2x16x2048x64 o h (ix4 b hd s j)
      = o (ix3 (⟨b.val * 16 + hd.val, by have := b.isLt; have := hd.isLt; omega⟩ : Fin 32) s j) :=
  shapeCast_apply o h _ _ (by
    rw [Shape.rowMajor_val_three, Shape.rowMajor_val_four]
    show ((b.val * 16 + hd.val) * 2048 + s.val) * 64 + j.val = ((b.val * 16 + hd.val) * 2048 + s.val) * 64 + j.val
    rfl)

/-- [2, 2048, 16, 64] as [4096, 1024]: (R, e) reads (R / 2048, R % 2048, e / 64, e % 64). -/
theorem cast_bshj_to_rows (z : S2x2048x16x64.Idx → α) (h : S2x2048x16x64.ShapeCasts S4096x1024)
    (R : Fin 4096) (e : Fin 1024) :
    shapeCast S4096x1024 z h (ix2 R e)
      = z (ix4 (⟨R.val / 2048, by have := R.isLt; omega⟩ : Fin 2) (⟨R.val % 2048, Nat.mod_lt _ (by decide)⟩ : Fin 2048)
            (Cert.Attn.headOf e) (Cert.Attn.offOf e)) :=
  shapeCast_apply z h _ _ (by
    rw [Shape.rowMajor_val_four, Shape.rowMajor_val_two]
    show ((R.val / 2048 * 2048 + R.val % 2048) * 16 + e.val / 64) * 64 + e.val % 64 = R.val * 1024 + e.val
    omega)

/-! ## Head split and head merge -/

/-- HEAD SPLIT: rows × lanes reshaped to (b, s, h, j), the middle axes swapped, reshaped to 32 heads: head bh, position s,
    coordinate j reads row (bh / 16)·2048 + s, lane 64·(bh % 16) + j. -/
theorem headSplit_apply (y : S4096x1024.Idx → α) (h1 : S4096x1024.ShapeCasts S2x2048x16x64)
    (ht : S2x2048x16x64.Transposes [0, 2, 1, 3] S2x16x2048x64) (h3 : S2x16x2048x64.ShapeCasts S32x2048x64)
    (bh : Fin 32) (s : Fin 2048) (j : Fin 64) :
    shapeCast S32x2048x64 (transpose S2x16x2048x64 [0, 2, 1, 3] (shapeCast S2x2048x16x64 y h1) ht) h3 (ix3 bh s j)
      = y (ix2 ⟨(bh.val / 16) * 2048 + s.val, by have := bh.isLt; have := s.isLt; omega⟩
            (Cert.Attn.lane ⟨bh.val % 16, Nat.mod_lt _ (by decide)⟩ j)) :=
  (cast_bhsj_to_heads _ h3 bh s j).trans
    ((transpose_ix4_0213_apply _ ht _ _ _ _).trans (cast_rows_to_bshj y h1 _ _ _ _))

/-- HEAD MERGE: 32 heads reshaped to (b, h, s, j), the middle axes swapped, reshaped to rows × lanes: row R, lane e reads
    head (R / 2048)·16 + e / 64, position R % 2048, coordinate e % 64. -/
theorem headMerge_apply (o : S32x2048x64.Idx → α) (h1 : S32x2048x64.ShapeCasts S2x16x2048x64)
    (ht : S2x16x2048x64.Transposes [0, 2, 1, 3] S2x2048x16x64) (h3 : S2x2048x16x64.ShapeCasts S4096x1024)
    (R : Fin 4096) (e : Fin 1024) :
    shapeCast S4096x1024 (transpose S2x2048x16x64 [0, 2, 1, 3] (shapeCast S2x16x2048x64 o h1) ht) h3 (ix2 R e)
      = o (ix3 ⟨(R.val / 2048) * 16 + (Cert.Attn.headOf e).val, by
                have := R.isLt; have := (Cert.Attn.headOf e).isLt; omega⟩
            ⟨R.val % 2048, Nat.mod_lt _ (by decide)⟩ (Cert.Attn.offOf e)) :=
  (cast_bshj_to_rows _ h3 R e).trans
    ((transpose_ix4_0213_apply _ ht _ _ _ _).trans (cast_heads_to_bhsj o h1 _ _ _ _))

/-! ## Flatten and unflatten of batch × position -/

/-- FLATTEN: [2, 2048, 1024] as [4096, 1024]: row R reads batch R / 2048, position R % 2048. -/
theorem flatten_apply (x : S2x2048x1024.Idx → α) (h : S2x2048x1024.ShapeCasts S4096x1024) (R : Fin 4096) (d : Fin 1024) :
    shapeCast S4096x1024 x h (ix2 R d)
      = x (ix3 (⟨R.val / 2048, by have := R.isLt; omega⟩ : Fin 2) (⟨R.val % 2048, Nat.mod_lt _ (by decide)⟩ : Fin 2048) d) :=
  shapeCast_apply x h _ _ (by
    rw [Shape.rowMajor_val_three, Shape.rowMajor_val_two]
    show (R.val / 2048 * 2048 + R.val % 2048) * 1024 + d.val = R.val * 1024 + d.val
    omega)

/-- UNFLATTEN: [4096, 1024] as [2, 2048, 1024]: (b, s, e) reads row b·2048 + s. -/
theorem unflatten_apply (y : S4096x1024.Idx → α) (h : S4096x1024.ShapeCasts S2x2048x1024) (b : Fin 2) (s : Fin 2048)
    (e : Fin 1024) :
    shapeCast S2x2048x1024 y h (ix3 b s e)
      = y (ix2 (⟨b.val * 2048 + s.val, by have := b.isLt; have := s.isLt; omega⟩ : Fin 4096) e) :=
  shapeCast_apply y h _ _ (by
    rw [Shape.rowMajor_val_two, Shape.rowMajor_val_three]
    show (b.val * 2048 + s.val) * 1024 + e.val = (b.val * 2048 + s.val) * 1024 + e.val
    rfl)

/-! ## The output layer's weight and bias -/

/-- The output weight: transposed, then its float format changed (the identity at the ideal reading). -/
theorem outWeight_apply (w : FVec Ideal S1024x1024 .f32) (ht : S1024x1024.Transposes [1, 0] S1024x1024)
    (hb : FTy.bf16.bits < FTy.f32.bits) (d e : Fin 1024) :
    truncf (F := Ideal) .bf16 (transpose S1024x1024 [1, 0] w ht) hb (ix2 d e) = w (ix2 e d) :=
  (truncf_apply _ hb _).trans (transpose_ix2_apply w ht d e)

/-- The output bias as one row. -/
theorem outBias_apply (b : S1024.Idx → α) (h : S1024.ShapeCasts S1x1024) (e : Fin 1024) :
    shapeCast S1x1024 b h (ix2 (0 : Fin 1) e) = b (ix1 e) :=
  shapeCast_a_1a_apply b h 0 e

/-! ## Three pieces of extent 1024 joined along an axis -/

/-- Three [1024, 1024] matrices joined along the columns: column 1024·n + e reads piece n at column e. -/
theorem concat3_cols_apply (u0 u1 u2 : S1024x1024.Idx → α)
    (hc : Shape.Concatenates [S1024x1024, S1024x1024, S1024x1024] S1024x3072 1) (d : Fin 1024) (c : Fin 3072) (n : Fin 3)
    (e : Fin 1024) (hce : c.val = 1024 * n.val + e.val) :
    concatenate S1024x3072 1 [⟨S1024x1024, u0⟩, ⟨S1024x1024, u1⟩, ⟨S1024x1024, u2⟩] hc (ix2 d c) = ![u0, u1, u2] n (ix2 d e) :=
  concatenate_ofFn_apply (t := S1024x3072) (s₁ := S1024x1024) 1 (![u0, u1, u2]) hc rfl 1024 rfl (ix2 d c) n
    (by have := e.isLt; show c.val / 1024 = n.val; omega) (ix2 d e)
    (by have := e.isLt; show e.val = c.val % 1024; omega)
    (fun b hb => match b, hb with
      | ⟨0, _⟩, _ => rfl
      | ⟨1, _⟩, hb => absurd rfl hb)

/-- Three [1024] vectors joined end to end: entry 1024·n + e reads piece n at entry e. -/
theorem concat3_vec_apply (u0 u1 u2 : S1024.Idx → α) (hc : Shape.Concatenates [S1024, S1024, S1024] S3072 0) (c : Fin 3072)
    (n : Fin 3) (e : Fin 1024) (hce : c.val = 1024 * n.val + e.val) :
    concatenate S3072 0 [⟨S1024, u0⟩, ⟨S1024, u1⟩, ⟨S1024, u2⟩] hc (ix1 c) = ![u0, u1, u2] n (ix1 e) :=
  concatenate_ofFn_apply (t := S3072) (s₁ := S1024) 0 (![u0, u1, u2]) hc rfl 1024 rfl (ix1 c) n
    (by have := e.isLt; show c.val / 1024 = n.val; omega) (ix1 e)
    (by have := e.isLt; show e.val = c.val % 1024; omega)
    (fun b hb => match b, hb with
      | ⟨0, _⟩, hb => absurd rfl hb)

/-! ## The fused weight: three transposed weights joined along the columns, then the change of float format -/

theorem fusedWeight0_apply (w0 w1 w2 : FVec Ideal S1024x1024 .f32) (ht : S1024x1024.Transposes [1, 0] S1024x1024)
    (hc : Shape.Concatenates [S1024x1024, S1024x1024, S1024x1024] S1024x3072 1) (hb : FTy.bf16.bits < FTy.f32.bits)
    (d e : Fin 1024) :
    truncf (F := Ideal) .bf16 (concatenate S1024x3072 1 [⟨S1024x1024, transpose S1024x1024 [1, 0] w0 ht⟩,
        ⟨S1024x1024, transpose S1024x1024 [1, 0] w1 ht⟩, ⟨S1024x1024, transpose S1024x1024 [1, 0] w2 ht⟩] hc) hb
        (ix2 d (⟨1024 * 0 + e.val, by have := e.isLt; omega⟩ : Fin 3072)) = w0 (ix2 e d) :=
  (truncf_apply _ hb _).trans ((concat3_cols_apply _ _ _ hc d _ 0 e rfl).trans (transpose_ix2_apply w0 ht d e))

theorem fusedWeight1_apply (w0 w1 w2 : FVec Ideal S1024x1024 .f32) (ht : S1024x1024.Transposes [1, 0] S1024x1024)
    (hc : Shape.Concatenates [S1024x1024, S1024x1024, S1024x1024] S1024x3072 1) (hb : FTy.bf16.bits < FTy.f32.bits)
    (d e : Fin 1024) :
    truncf (F := Ideal) .bf16 (concatenate S1024x3072 1 [⟨S1024x1024, transpose S1024x1024 [1, 0] w0 ht⟩,
        ⟨S1024x1024, transpose S1024x1024 [1, 0] w1 ht⟩, ⟨S1024x1024, transpose S1024x1024 [1, 0] w2 ht⟩] hc) hb
        (ix2 d (⟨1024 * 1 + e.val, by have := e.isLt; omega⟩ : Fin 3072)) = w1 (ix2 e d) :=
  (truncf_apply _ hb _).trans ((concat3_cols_apply _ _ _ hc d _ 1 e rfl).trans (transpose_ix2_apply w1 ht d e))

theorem fusedWeight2_apply (w0 w1 w2 : FVec Ideal S1024x1024 .f32) (ht : S1024x1024.Transposes [1, 0] S1024x1024)
    (hc : Shape.Concatenates [S1024x1024, S1024x1024, S1024x1024] S1024x3072 1) (hb : FTy.bf16.bits < FTy.f32.bits)
    (d e : Fin 1024) :
    truncf (F := Ideal) .bf16 (concatenate S1024x3072 1 [⟨S1024x1024, transpose S1024x1024 [1, 0] w0 ht⟩,
        ⟨S1024x1024, transpose S1024x1024 [1, 0] w1 ht⟩, ⟨S1024x1024, transpose S1024x1024 [1, 0] w2 ht⟩] hc) hb
        (ix2 d (⟨1024 * 2 + e.val, by have := e.isLt; omega⟩ : Fin 3072)) = w2 (ix2 e d) :=
  (truncf_apply _ hb _).trans ((concat3_cols_apply _ _ _ hc d _ 2 e rfl).trans (transpose_ix2_apply w2 ht d e))

/-! ## The fused bias: three biases joined end to end, as one row -/

theorem fusedBias0_apply (b0 b1 b2 : S1024.Idx → α) (hc : Shape.Concatenates [S1024, S1024, S1024] S3072 0)
    (h : S3072.ShapeCasts S1x3072) (e : Fin 1024) :
    shapeCast S1x3072 (concatenate S3072 0 [⟨S1024, b0⟩, ⟨S1024, b1⟩, ⟨S1024, b2⟩] hc) h
        (ix2 (0 : Fin 1) (⟨1024 * 0 + e.val, by have := e.isLt; omega⟩ : Fin 3072)) = b0 (ix1 e) :=
  (shapeCast_a_1a_apply _ h 0 _).trans (concat3_vec_apply b0 b1 b2 hc _ 0 e rfl)

theorem fusedBias1_apply (b0 b1 b2 : S1024.Idx → α) (hc : Shape.Concatenates [S1024, S1024, S1024] S3072 0)
    (h : S3072.ShapeCasts S1x3072) (e : Fin 1024) :
    shapeCast S1x3072 (concatenate S3072 0 [⟨S1024, b0⟩, ⟨S1024, b1⟩, ⟨S1024, b2⟩] hc) h
        (ix2 (0 : Fin 1) (⟨1024 * 1 + e.val, by have := e.isLt; omega⟩ : Fin 3072)) = b1 (ix1 e) :=
  (shapeCast_a_1a_apply _ h 0 _).trans (concat3_vec_apply b0 b1 b2 hc _ 1 e rfl)

theorem fusedBias2_apply (b0 b1 b2 : S1024.Idx → α) (hc : Shape.Concatenates [S1024, S1024, S1024] S3072 0)
    (h : S3072.ShapeCasts S1x3072) (e : Fin 1024) :
    shapeCast S1x3072 (concatenate S3072 0 [⟨S1024, b0⟩, ⟨S1024, b1⟩, ⟨S1024, b2⟩] hc) h
        (ix2 (0 : Fin 1) (⟨1024 * 2 + e.val, by have := e.isLt; omega⟩ : Fin 3072)) = b2 (ix1 e) :=
  (shapeCast_a_1a_apply _ h 0 _).trans (concat3_vec_apply b0 b1 b2 hc _ 2 e rfl)

end Cert.KernelIdeal.Lay

end
-- ==== Proof.IdealHeads.lean ====
/-
  The three head entries of the fused projection, stated over arrays.

  Head b·16 + h, position s, coordinate j of the head split of a [4096, 1024] array is its row b·2048 + s, lane 64·h + j
  (the quotient and remainder of b·16 + h by 16 are b and h). Row R, lane e of the n-th third of the fused projection is
  (∑ d, X[R, d] · Wt[d, 1024·n + e]) + B[0, 1024·n + e]. With X the flattened input, X[b·2048 + s, d] is the input at
  (b, s, d); with Wt the three transposed weights joined along the columns, Wt[d, 1024·n + e] is weight n at (e, d);
  with B the three biases joined end to end, B[0, 1024·n + e] is bias n at e. So the entry is the linear layer of input
  row (b, s) with weight n and bias n at lane 64·h + j: the head entry of the specification.
-/
import proofs.«169357_j53094385713646_2_alg».proof.Proof.IdealFinal0
import proofs.«169357_j53094385713646_2_alg».proof.Proof.IdealLayout
import proofs.«169357_j53094385713646_2_alg».proof.Proof.Spec

noncomputable section

namespace Cert.KernelIdeal.Heads

open Idealize.ShloMosaic Idealize.ShloMosaic.ValueIdx
open Cert.KernelIdeal Cert.KernelIdeal.Lay Cert.KernelIdeal.Hand

/-! ## Indices with equal coordinates are equal -/

theorem ix2_congr {n0 n1 : ℕ} {a a' : Fin n0} {b b' : Fin n1} (ha : a = a') (hb : b = b') : ix2 a b = ix2 a' b' := by
  rw [ha, hb]

theorem ix3_congr {n0 n1 n2 : ℕ} {a a' : Fin n0} {b b' : Fin n1} {c c' : Fin n2} (ha : a = a') (hb : b = b')
    (hc : c = c') : ix3 a b c = ix3 a' b' c' := by
  rw [ha, hb, hc]

/-! ## The head split at head b·16 + h -/

theorem headSplit_bh {α : Type} (y : S4096x1024.Idx → α) (h1 : S4096x1024.ShapeCasts S2x2048x16x64)
    (ht4 : S2x2048x16x64.Transposes [0, 2, 1, 3] S2x16x2048x64) (h3 : S2x16x2048x64.ShapeCasts S32x2048x64)
    (b : Fin 2) (h : Fin 16) (s : Fin 2048) (j : Fin 64) :
    shapeCast S32x2048x64 (transpose S2x16x2048x64 [0, 2, 1, 3] (shapeCast S2x2048x16x64 y h1) ht4) h3
        (ix3 (⟨b.val * 16 + h.val, by have := b.isLt; have := h.isLt; omega⟩ : Fin 32) s j)
      = y (ix2 (⟨b.val * 2048 + s.val, by have := b.isLt; have := s.isLt; omega⟩ : Fin 4096) (Cert.Attn.lane h j)) :=
  (headSplit_apply y h1 ht4 h3 _ s j).trans
    (congrArg y (ix2_congr
      (Fin.ext (by
        have := b.isLt; have := h.isLt; have := s.isLt
        show (b.val * 16 + h.val) / 16 * 2048 + s.val = b.val * 2048 + s.val
        omega))
      (congrArg (fun x => Cert.Attn.lane x j) (Fin.ext (by
        have := b.isLt; have := h.isLt
        show (b.val * 16 + h.val) % 16 = h.val
        omega)))))

/-! ## The flattened input at row b·2048 + s -/

theorem X_entry {α : Type} (a0 : S2x2048x1024.Idx → α) (hf : S2x2048x1024.ShapeCasts S4096x1024) (b : Fin 2) (s : Fin 2048)
    (d : Fin 1024) :
    shapeCast S4096x1024 a0 hf
        (ix2 (⟨b.val * 2048 + s.val, by have := b.isLt; have := s.isLt; omega⟩ : Fin 4096) d) = a0 (ix3 b s d) :=
  (flatten_apply a0 hf _ d).trans
    (congrArg a0 (ix3_congr
      (Fin.ext (by have := b.isLt; have := s.isLt; show (b.val * 2048 + s.val) / 2048 = b.val; omega))
      (Fin.ext (by have := b.isLt; have := s.isLt; show (b.val * 2048 + s.val) % 2048 = s.val; omega))
      rfl))

/-! ## One entry of each third of the fused projection -/

theorem Gq_entry (X : S4096x1024.Idx → EReal) (Wt : S1024x3072.Idx → EReal) (B : S1x3072.Idx → EReal)
    (row : Fin 1024 → EReal) (w : Fin 1024 → Fin 1024 → EReal) (c : Fin 1024 → EReal) (R : Fin 4096) (e : Fin 1024)
    (hX : ∀ d, X (ix2 R d) = row d)
    (hW : ∀ d, Wt (ix2 d (⟨1024 * 0 + e.val, by have := e.isLt; omega⟩ : Fin 3072)) = w e d)
    (hB : B (ix2 (0 : Fin 1) (⟨1024 * 0 + e.val, by have := e.isLt; omega⟩ : Fin 3072)) = c e) :
    Gq X Wt B (ix2 R e) = Cert.Attn.lin row w c e := by
  unfold Gq Cert.Attn.lin
  refine congrArg₂ (· + ·) (Finset.sum_congr rfl fun d _ => congrArg₂ (· * ·) ?_ ?_) ?_
  · exact hX d
  · exact (congrArg (fun col => Wt (ix2 d col)) (Fin.ext (by show e.val = 1024 * 0 + e.val; omega))).trans (hW d)
  · exact (congrArg (fun col => B (ix2 (0 : Fin 1) col)) (Fin.ext (by show e.val = 1024 * 0 + e.val; omega))).trans hB

theorem Gk_entry (X : S4096x1024.Idx → EReal) (Wt : S1024x3072.Idx → EReal) (B : S1x3072.Idx → EReal)
    (row : Fin 1024 → EReal) (w : Fin 1024 → Fin 1024 → EReal) (c : Fin 1024 → EReal) (R : Fin 4096) (e : Fin 1024)
    (hX : ∀ d, X (ix2 R d) = row d)
    (hW : ∀ d, Wt (ix2 d (⟨1024 * 1 + e.val, by have := e.isLt; omega⟩ : Fin 3072)) = w e d)
    (hB : B (ix2 (0 : Fin 1) (⟨1024 * 1 + e.val, by have := e.isLt; omega⟩ : Fin 3072)) = c e) :
    Gk X Wt B (ix2 R e) = Cert.Attn.lin row w c e := by
  unfold Gk Cert.Attn.lin
  refine congrArg₂ (· + ·) (Finset.sum_congr rfl fun d _ => congrArg₂ (· * ·) ?_ ?_) ?_
  · exact hX d
  · exact (congrArg (fun col => Wt (ix2 d col)) (Fin.ext (by show 1024 + e.val = 1024 * 1 + e.val; omega))).trans (hW d)
  · exact (congrArg (fun col => B (ix2 (0 : Fin 1) col)) (Fin.ext (by show 1024 + e.val = 1024 * 1 + e.val; omega))).trans hB

theorem Gv_entry (X : S4096x1024.Idx → EReal) (Wt : S1024x3072.Idx → EReal) (B : S1x3072.Idx → EReal)
    (row : Fin 1024 → EReal) (w : Fin 1024 → Fin 1024 → EReal) (c : Fin 1024 → EReal) (R : Fin 4096) (e : Fin 1024)
    (hX : ∀ d, X (ix2 R d) = row d)
    (hW : ∀ d, Wt (ix2 d (⟨1024 * 2 + e.val, by have := e.isLt; omega⟩ : Fin 3072)) = w e d)
    (hB : B (ix2 (0 : Fin 1) (⟨1024 * 2 + e.val, by have := e.isLt; omega⟩ : Fin 3072)) = c e) :
    Gv X Wt B (ix2 R e) = Cert.Attn.lin row w c e := by
  unfold Gv Cert.Attn.lin
  refine congrArg₂ (· + ·) (Finset.sum_congr rfl fun d _ => congrArg₂ (· * ·) ?_ ?_) ?_
  · exact hX d
  · exact (congrArg (fun col => Wt (ix2 d col)) (Fin.ext (by show 2048 + e.val = 1024 * 2 + e.val; omega))).trans (hW d)
  · exact (congrArg (fun col => B (ix2 (0 : Fin 1) col)) (Fin.ext (by show 2048 + e.val = 1024 * 2 + e.val; omega))).trans hB

/-! ## The three head entries -/

section Heads

variable (a0 : FVec Ideal S2x2048x1024 .f32) (w0 w1 w2 : FVec Ideal S1024x1024 .f32) (c0 c1 c2 : FVec Ideal S1024 .f32)
  (hf : S2x2048x1024.ShapeCasts S4096x1024) (ht : S1024x1024.Transposes [1, 0] S1024x1024)
  (hc : Shape.Concatenates [S1024x1024, S1024x1024, S1024x1024] S1024x3072 1) (hb : FTy.bf16.bits < FTy.f32.bits)
  (hc0 : Shape.Concatenates [S1024, S1024, S1024] S3072 0) (h7 : S3072.ShapeCasts S1x3072)
  (h1 : S4096x1024.ShapeCasts S2x2048x16x64) (ht4 : S2x2048x16x64.Transposes [0, 2, 1, 3] S2x16x2048x64)
  (h3 : S2x16x2048x64.ShapeCasts S32x2048x64)

theorem head_q (b : Fin 2) (h : Fin 16) (s : Fin 2048) (j : Fin 64) :
    shapeCast S32x2048x64 (transpose S2x16x2048x64 [0, 2, 1, 3] (shapeCast S2x2048x16x64
        (Gq (shapeCast S4096x1024 a0 hf)
          (truncf (F := Ideal) .bf16 (concatenate S1024x3072 1 [⟨S1024x1024, transpose S1024x1024 [1, 0] w0 ht⟩,
            ⟨S1024x1024, transpose S1024x1024 [1, 0] w1 ht⟩, ⟨S1024x1024, transpose S1024x1024 [1, 0] w2 ht⟩] hc) hb)
          (shapeCast S1x3072 (concatenate S3072 0 [⟨S1024, c0⟩, ⟨S1024, c1⟩, ⟨S1024, c2⟩] hc0) h7)) h1) ht4) h3
        (ix3 (⟨b.val * 16 + h.val, by have := b.isLt; have := h.isLt; omega⟩ : Fin 32) s j)
      = Cert.Attn.head (Cert.Attn.cur3 a0) (Cert.Attn.cur2 w0) (Cert.Attn.cur1 c0) b h s j :=
  (headSplit_bh _ h1 ht4 h3 b h s j).trans
    (Gq_entry _ _ _ (Cert.Attn.cur3 a0 b s) (Cert.Attn.cur2 w0) (Cert.Attn.cur1 c0) _ (Cert.Attn.lane h j)
      (fun d => X_entry a0 hf b s d)
      (fun d => fusedWeight0_apply w0 w1 w2 ht hc hb d (Cert.Attn.lane h j))
      (fusedBias0_apply c0 c1 c2 hc0 h7 (Cert.Attn.lane h j)))

theorem head_k (b : Fin 2) (h : Fin 16) (s : Fin 2048) (j : Fin 64) :
    shapeCast S32x2048x64 (transpose S2x16x2048x64 [0, 2, 1, 3] (shapeCast S2x2048x16x64
        (Gk (shapeCast S4096x1024 a0 hf)
          (truncf (F := Ideal) .bf16 (concatenate S1024x3072 1 [⟨S1024x1024, transpose S1024x1024 [1, 0] w0 ht⟩,
            ⟨S1024x1024, transpose S1024x1024 [1, 0] w1 ht⟩, ⟨S1024x1024, transpose S1024x1024 [1, 0] w2 ht⟩] hc) hb)
          (shapeCast S1x3072 (concatenate S3072 0 [⟨S1024, c0⟩, ⟨S1024, c1⟩, ⟨S1024, c2⟩] hc0) h7)) h1) ht4) h3
        (ix3 (⟨b.val * 16 + h.val, by have := b.isLt; have := h.isLt; omega⟩ : Fin 32) s j)
      = Cert.Attn.head (Cert.Attn.cur3 a0) (Cert.Attn.cur2 w1) (Cert.Attn.cur1 c1) b h s j :=
  (headSplit_bh _ h1 ht4 h3 b h s j).trans
    (Gk_entry _ _ _ (Cert.Attn.cur3 a0 b s) (Cert.Attn.cur2 w1) (Cert.Attn.cur1 c1) _ (Cert.Attn.lane h j)
      (fun d => X_entry a0 hf b s d)
      (fun d => fusedWeight1_apply w0 w1 w2 ht hc hb d (Cert.Attn.lane h j))
      (fusedBias1_apply c0 c1 c2 hc0 h7 (Cert.Attn.lane h j)))

theorem head_v (b : Fin 2) (h : Fin 16) (s : Fin 2048) (j : Fin 64) :
    shapeCast S32x2048x64 (transpose S2x16x2048x64 [0, 2, 1, 3] (shapeCast S2x2048x16x64
        (Gv (shapeCast S4096x1024 a0 hf)
          (truncf (F := Ideal) .bf16 (concatenate S1024x3072 1 [⟨S1024x1024, transpose S1024x1024 [1, 0] w0 ht⟩,
            ⟨S1024x1024, transpose S1024x1024 [1, 0] w1 ht⟩, ⟨S1024x1024, transpose S1024x1024 [1, 0] w2 ht⟩] hc) hb)
          (shapeCast S1x3072 (concatenate S3072 0 [⟨S1024, c0⟩, ⟨S1024, c1⟩, ⟨S1024, c2⟩] hc0) h7)) h1) ht4) h3
        (ix3 (⟨b.val * 16 + h.val, by have := b.isLt; have := h.isLt; omega⟩ : Fin 32) s j)
      = Cert.Attn.head (Cert.Attn.cur3 a0) (Cert.Attn.cur2 w2) (Cert.Attn.cur1 c2) b h s j :=
  (headSplit_bh _ h1 ht4 h3 b h s j).trans
    (Gv_entry _ _ _ (Cert.Attn.cur3 a0 b s) (Cert.Attn.cur2 w2) (Cert.Attn.cur1 c2) _ (Cert.Attn.lane h j)
      (fun d => X_entry a0 hf b s d)
      (fun d => fusedWeight2_apply w0 w1 w2 ht hc hb d (Cert.Attn.lane h j))
      (fusedBias2_apply c0 c1 c2 hc0 h7 (Cert.Attn.lane h j)))

end Heads

end Cert.KernelIdeal.Heads

end
-- ==== Proof.IdealKernelValue.lean ====
/-
  The kernel program's result, entry by entry. Following the buffers backwards from the returned array: the last
  reshape reads row 2048·b + s of the output projection; that row is the linear layer of the merged heads' row; lane d
  of the merged row is coordinate d mod 64 of head d / 64's attention output for (b, s); that output is the kernel-form
  attention of the head's query row against the head's keys and values; and each head entry is a lane of a projection
  of x. Altogether the returned array at (b, s, e) is the kernel form of the layer at (b, s, e).
-/
import proofs.«169357_j53094385713646_2_alg».proof.Proof.IdealStages
import proofs.«169357_j53094385713646_2_alg».proof.Proof.IdealLayout
import proofs.«169357_j53094385713646_2_alg».proof.Proof.IdealHeads
import proofs.«169357_j53094385713646_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

theorem ix3_ext {n0 n1 n2 : Nat} {a a' : Fin n0} {b b' : Fin n1} {d d' : Fin n2} (ha : a.val = a'.val) (hb : b.val = b'.val)
    (hd : d.val = d'.val) : ix3 a b d = ix3 a' b' d' := by rw [Fin.ext ha, Fin.ext hb, Fin.ext hd]

/-! ## Head entries: lanes of the three projections -/

theorem q_entry (b : Fin 2) (h : Fin 16) (s : Fin 2048) (j : Fin 64) :
    V3 m ρ c main_v11 (ix3 (⟨b.val * 16 + h.val, by have := b.isLt; have := h.isLt; omega⟩ : Fin 32) s j) = (Cert.Attn.head (Cert.Attn.cur3 (W0 m ρ c (Proc.devRef .tc main_arg0))) (Cert.Attn.cur2 (W0 m ρ c (Proc.devRef .tc main_arg1))) (Cert.Attn.cur1 (W0 m ρ c (Proc.devRef .tc main_arg2))) b h s j) := by
  rw [stage_v11, stage_v8_0, stage_v0, stage_v5, stage_v7]
  exact Cert.KernelIdeal.Heads.head_q _ _ _ _ _ _ _ _ _ _ _ _ _ _ _ _ b h s j

theorem k_entry (b : Fin 2) (h : Fin 16) (s : Fin 2048) (j : Fin 64) :
    V3 m ρ c main_v14 (ix3 (⟨b.val * 16 + h.val, by have := b.isLt; have := h.isLt; omega⟩ : Fin 32) s j) = (Cert.Attn.head (Cert.Attn.cur3 (W0 m ρ c (Proc.devRef .tc main_arg0))) (Cert.Attn.cur2 (W0 m ρ c (Proc.devRef .tc main_arg3))) (Cert.Attn.cur1 (W0 m ρ c (Proc.devRef .tc main_arg4))) b h s j) := by
  rw [stage_v14, stage_v8_1, stage_v0, stage_v5, stage_v7]
  exact Cert.KernelIdeal.Heads.head_k _ _ _ _ _ _ _ _ _ _ _ _ _ _ _ _ b h s j

theorem v_entry (b : Fin 2) (h : Fin 16) (s : Fin 2048) (j : Fin 64) :
    V3 m ρ c main_v17 (ix3 (⟨b.val * 16 + h.val, by have := b.isLt; have := h.isLt; omega⟩ : Fin 32) s j) = (Cert.Attn.head (Cert.Attn.cur3 (W0 m ρ c (Proc.devRef .tc main_arg0))) (Cert.Attn.cur2 (W0 m ρ c (Proc.devRef .tc main_arg5))) (Cert.Attn.cur1 (W0 m ρ c (Proc.devRef .tc main_arg6))) b h s j) := by
  rw [stage_v17, stage_v8_2, stage_v0, stage_v5, stage_v7]
  exact Cert.KernelIdeal.Heads.head_v _ _ _ _ _ _ _ _ _ _ _ _ _ _ _ _ b h s j

/-! ## Attention entries -/

theorem attn_entry (b : Fin 2) (h : Fin 16) (s : Fin 2048) (j : Fin 64) :
    W4 m ρ c (Proc.devRef .tc main_v18) (ix3 (⟨b.val * 16 + h.val, by have := b.isLt; have := h.isLt; omega⟩ : Fin 32) s j)
      = Cert.Attn.attnK (Cert.Attn.head (Cert.Attn.cur3 (W0 m ρ c (Proc.devRef .tc main_arg0))) (Cert.Attn.cur2 (W0 m ρ c (Proc.devRef .tc main_arg1))) (Cert.Attn.cur1 (W0 m ρ c (Proc.devRef .tc main_arg2))) b h s) (Cert.Attn.head (Cert.Attn.cur3 (W0 m ρ c (Proc.devRef .tc main_arg0))) (Cert.Attn.cur2 (W0 m ρ c (Proc.devRef .tc main_arg3))) (Cert.Attn.cur1 (W0 m ρ c (Proc.devRef .tc main_arg4))) b h) (Cert.Attn.head (Cert.Attn.cur3 (W0 m ρ c (Proc.devRef .tc main_arg0))) (Cert.Attn.cur2 (W0 m ρ c (Proc.devRef .tc main_arg5))) (Cert.Attn.cur1 (W0 m ρ c (Proc.devRef .tc main_arg6))) b h) j := by
  rw [stage_v18]
  show attnAt (V3 m ρ c main_v11) (V3 m ρ c main_v14) (V3 m ρ c main_v17) (⟨b.val * 16 + h.val, by have := b.isLt; have := h.isLt; omega⟩ : Fin 32) s j = _
  exact (attnK_eq_attnAt _ _ _ _ _ _ _ s j j (fun j' => (q_entry m ρ c b h s j').symm)
    (fun sk j' => (k_entry m ρ c b h sk j').symm) (fun sk j' => (v_entry m ρ c b h sk j').symm) rfl).symm

/-! ## Rows of the merged heads -/

theorem merged_entry (b : Fin 2) (s : Fin 2048) (d : Fin 1024) :
    V5 m ρ c main_v21 (ix2 (⟨b.val * 2048 + s.val, by have := b.isLt; have := s.isLt; omega⟩ : Fin 4096) d)
      = Cert.Attn.mergedK (Cert.Attn.cur3 (W0 m ρ c (Proc.devRef .tc main_arg0))) (Cert.Attn.cur2 (W0 m ρ c (Proc.devRef .tc main_arg1))) (Cert.Attn.cur2 (W0 m ρ c (Proc.devRef .tc main_arg3))) (Cert.Attn.cur2 (W0 m ρ c (Proc.devRef .tc main_arg5))) (Cert.Attn.cur1 (W0 m ρ c (Proc.devRef .tc main_arg2))) (Cert.Attn.cur1 (W0 m ρ c (Proc.devRef .tc main_arg4))) (Cert.Attn.cur1 (W0 m ρ c (Proc.devRef .tc main_arg6))) b s d := by
  rw [stage_v21]
  refine (Cert.KernelIdeal.Lay.headMerge_apply _ _ _ _ _ d).trans ?_
  unfold Cert.Attn.mergedK
  refine (congrArg (W4 m ρ c (Proc.devRef .tc main_v18)) (ix3_ext ?_ ?_ rfl)).trans
    (attn_entry m ρ c b (Cert.Attn.headOf d) s (Cert.Attn.offOf d))
  · have := b.isLt; have := s.isLt
    show (b.val * 2048 + s.val) / 2048 * 16 + (Cert.Attn.headOf d).val = b.val * 16 + (Cert.Attn.headOf d).val
    omega
  · have := b.isLt; have := s.isLt
    show (b.val * 2048 + s.val) % 2048 = s.val
    omega

/-! ## The returned array -/

theorem out_entry (b : Fin 2) (s : Fin 2048) (e : Fin 1024) :
    W7 m ρ c (Proc.devRef .tc main_v26) (ix3 b s e) = Cert.Attn.kern (Cert.Attn.cur3 (W0 m ρ c (Proc.devRef .tc main_arg0))) (Cert.Attn.cur2 (W0 m ρ c (Proc.devRef .tc main_arg1))) (Cert.Attn.cur2 (W0 m ρ c (Proc.devRef .tc main_arg3))) (Cert.Attn.cur2 (W0 m ρ c (Proc.devRef .tc main_arg5))) (Cert.Attn.cur2 (W0 m ρ c (Proc.devRef .tc main_arg7))) (Cert.Attn.cur1 (W0 m ρ c (Proc.devRef .tc main_arg2))) (Cert.Attn.cur1 (W0 m ρ c (Proc.devRef .tc main_arg4))) (Cert.Attn.cur1 (W0 m ρ c (Proc.devRef .tc main_arg6))) (Cert.Attn.cur1 (W0 m ρ c (Proc.devRef .tc main_arg8))) b s e := by
  rw [stage_v26]
  refine (Cert.KernelIdeal.Lay.unflatten_apply _ _ b s e).trans ?_
  rw [stage_v25]
  unfold Gout Cert.Attn.kern Cert.Attn.lin
  refine congrArg₂ (· + ·) (Finset.sum_congr rfl fun d _ => congrArg₂ (· * ·) ?_ ?_) ?_
  · exact merged_entry m ρ c b s d
  · rw [stage_v23]
    refine (Cert.KernelIdeal.Lay.outWeight_apply _ _ _ d _).trans ?_
    rw [W4_arg m ρ c main_arg7 (by decide) (by decide) (by decide) (by decide)]
    rfl
  · rw [stage_v24]
    refine (Cert.KernelIdeal.Lay.outBias_apply _ _ _).trans ?_
    rw [W4_arg m ρ c main_arg8 (by decide) (by decide) (by decide) (by decide)]
    rfl

end Cert.KernelIdeal.Hand

end
-- ==== Proof.RefIsSpec.lean ====
/-
  The reference program, read one operation at a time, computes the reference form of multi-head attention:
  its last array, at batch b, row s and lane e, is `Cert.Attn.ref` of the argument arrays there.

  Each stage is read at an index built from plain coordinates: the three projections' heads, the scaled scores, the row
  maximum, the exponentials, their row sum, the quotients, the contraction with the values, the merge of the heads back
  into 1024 lanes, and the output layer.
-/
import proofs.«169357_j53094385713646_2_alg».proof.Proof.Gen.ReferenceIdeal.Read
import proofs.«169357_j53094385713646_2_alg».proof.Proof.Spec
import Idealize.ShloMosaic.PureOps.Reduce

noncomputable section

namespace Cert.Attn.RefSide

open Cert.ReferenceIdeal Cert.ReferenceIdeal.Gen Cert.ReferenceIdeal.Read Idealize.ShloMosaic Idealize.ShloMosaic.ValueIdx Cert.Attn

/-- The argument arrays' types: x, a weight matrix, a bias row. -/
abbrev TX := (⟨S2x2048x1024, .f32⟩ : BufTy).Contents (Elt Ideal)
abbrev TW := (⟨S1024x1024, .f32⟩ : BufTy).Contents (Elt Ideal)
abbrev TB := (⟨S1024, .f32⟩ : BufTy).Contents (Elt Ideal)

/-! ## Index equations -/

/-- Splitting the 1024 lanes into 16 heads of 64 and moving the head axis outward: entry (b, h, s, j) of a head array is
    entry (b, s, 64·h + j) of the projection. -/
theorem idx_head (b : Fin 2) (h : Fin 16) (s : Fin 2048) (j : Fin 64) :
    idx_main_v4 (idx_main_v5 (ix4 b h s j)) = ix3 b s (lane h j) :=
  funext fun a => Fin.ext (by
    have hb := b.isLt; have hh := h.isLt; have hs := s.isLt; have hj := j.isLt
    match a with
    | ⟨0, _⟩ => show (((b.val * 2048 + s.val) * 16 + h.val) * 64 + j.val) / 2097152 = b.val; omega
    | ⟨1, _⟩ => show (((b.val * 2048 + s.val) * 16 + h.val) * 64 + j.val) / 1024 % 2048 = s.val; omega
    | ⟨2, _⟩ => show (((b.val * 2048 + s.val) * 16 + h.val) * 64 + j.val) % 1024 = h.val * 64 + j.val; omega)

/-- The contraction of a linear layer reads row (b, s) of the left array … -/
theorem lidx_lin (b : Fin 2) (s : Fin 2048) (e k : Fin 1024) : lidx_main_v0 (ix3 b s e) k = ix3 b s k :=
  funext fun a => Fin.ext (by match a with | ⟨0, _⟩ => rfl | ⟨1, _⟩ => rfl | ⟨2, _⟩ => rfl)
/-- … against row e of the weight. -/
theorem ridx_lin (b : Fin 2) (s : Fin 2048) (e k : Fin 1024) : ridx_main_v0 (ix3 b s e) k = ix2 e k :=
  funext fun a => Fin.ext (by match a with | ⟨0, _⟩ => rfl | ⟨1, _⟩ => rfl)
/-- The bias row is repeated along batch and row: entry (b, s, e) reads lane e. -/
theorem idx_bias (b : Fin 2) (s : Fin 2048) (e : Fin 1024) : idx_main_v1 (idx_main_v2 (ix3 b s e)) = ix1 e :=
  funext fun a => Fin.ext (by match a with | ⟨0, _⟩ => rfl)

/-! ## The three projections -/

theorem proj_q (x0 : TX) (x1 : TW) (x2 : TB) (b : Fin 2) (s : Fin 2048) (e : Fin 1024) :
    val_main_v3 (F := Ideal) x0 x1 x2 (ix3 b s e) = lin (cur3 x0 b s) (cur2 x1) (cur1 x2) e := by
  rw [val_main_v3_apply, val_main_v0_apply, val_main_v2_apply, val_main_v1_apply, idx_bias]
  simp only [lidx_lin, ridx_lin, Ideal.addf_def]
  rfl
theorem proj_k (x0 : TX) (x3 : TW) (x4 : TB) (b : Fin 2) (s : Fin 2048) (e : Fin 1024) :
    val_main_v9 (F := Ideal) x0 x3 x4 (ix3 b s e) = lin (cur3 x0 b s) (cur2 x3) (cur1 x4) e := by
  rw [val_main_v9_apply, val_main_v6_apply, val_main_v8_apply, val_main_v7_apply]
  rw [show idx_main_v7 (idx_main_v8 (ix3 b s e)) = ix1 e from idx_bias b s e]
  simp only [show ∀ k, lidx_main_v6 (ix3 b s e) k = ix3 b s k from lidx_lin b s e,
    show ∀ k, ridx_main_v6 (ix3 b s e) k = ix2 e k from ridx_lin b s e, Ideal.addf_def]
  rfl
theorem proj_v (x0 : TX) (x5 : TW) (x6 : TB) (b : Fin 2) (s : Fin 2048) (e : Fin 1024) :
    val_main_v15 (F := Ideal) x0 x5 x6 (ix3 b s e) = lin (cur3 x0 b s) (cur2 x5) (cur1 x6) e := by
  rw [val_main_v15_apply, val_main_v12_apply, val_main_v14_apply, val_main_v13_apply]
  rw [show idx_main_v13 (idx_main_v14 (ix3 b s e)) = ix1 e from idx_bias b s e]
  simp only [show ∀ k, lidx_main_v12 (ix3 b s e) k = ix3 b s k from lidx_lin b s e,
    show ∀ k, ridx_main_v12 (ix3 b s e) k = ix2 e k from ridx_lin b s e, Ideal.addf_def]
  rfl

/-- Head h of batch b of each projection. -/
theorem head_q (x0 : TX) (x1 : TW) (x2 : TB) (b : Fin 2) (h : Fin 16) (s : Fin 2048) (j : Fin 64) :
    val_main_v5 (F := Ideal) x0 x1 x2 (ix4 b h s j) = head (cur3 x0) (cur2 x1) (cur1 x2) b h s j := by
  rw [val_main_v5_apply, val_main_v4_apply, idx_head, proj_q]
  rfl
theorem head_k (x0 : TX) (x3 : TW) (x4 : TB) (b : Fin 2) (h : Fin 16) (s : Fin 2048) (j : Fin 64) :
    val_main_v11 (F := Ideal) x0 x3 x4 (ix4 b h s j) = head (cur3 x0) (cur2 x3) (cur1 x4) b h s j := by
  rw [val_main_v11_apply, val_main_v10_apply, show idx_main_v10 (idx_main_v11 (ix4 b h s j)) = ix3 b s (lane h j) from idx_head b h s j, proj_k]
  rfl
theorem head_v (x0 : TX) (x5 : TW) (x6 : TB) (b : Fin 2) (h : Fin 16) (s : Fin 2048) (j : Fin 64) :
    val_main_v17 (F := Ideal) x0 x5 x6 (ix4 b h s j) = head (cur3 x0) (cur2 x5) (cur1 x6) b h s j := by
  rw [val_main_v17_apply, val_main_v16_apply, show idx_main_v16 (idx_main_v17 (ix4 b h s j)) = ix3 b s (lane h j) from idx_head b h s j, proj_v]
  rfl

/-! ## Scores -/

theorem lidx_score (b : Fin 2) (h : Fin 16) (sq sk : Fin 2048) (k : Fin 64) : lidx_main_v18 (ix4 b h sq sk) k = ix4 b h sq k :=
  funext fun a => Fin.ext (by match a with | ⟨0, _⟩ => rfl | ⟨1, _⟩ => rfl | ⟨2, _⟩ => rfl | ⟨3, _⟩ => rfl)
theorem ridx_score (b : Fin 2) (h : Fin 16) (sq sk : Fin 2048) (k : Fin 64) : ridx_main_v18 (ix4 b h sq sk) k = ix4 b h sk k :=
  funext fun a => Fin.ext (by match a with | ⟨0, _⟩ => rfl | ⟨1, _⟩ => rfl | ⟨2, _⟩ => rfl | ⟨3, _⟩ => rfl)

/-- Entry (b, h, sq, sk) of the scaled scores: query row sq of head h against key row sk, divided by sqrt 64. -/
theorem score (x0 : TX) (x1 : TW) (x2 : TB) (x3 : TW) (x4 : TB) (b : Fin 2) (h : Fin 16) (sq sk : Fin 2048) :
    val_main_v21 (F := Ideal) x0 x1 x2 x3 x4 (ix4 b h sq sk)
      = scoreR (head (cur3 x0) (cur2 x1) (cur1 x2) b h sq) (head (cur3 x0) (cur2 x3) (cur1 x4) b h) sk := by
  rw [val_main_v21_apply, val_main_v18_apply, val_main_v20_apply, val_main_v19_apply, val_main_cst_apply]
  simp only [lidx_score, ridx_score, head_q, head_k, Ideal.hostDivf_def, Ideal.hostUnary_sqrt_def, Ideal.ofBits_def]
  rfl

/-! ## The row maximum -/

/-- Dropping the key axis of the score array leaves (b, h, sq). -/
theorem reduces_keys : S2x16x2048x2048.Reduces [3] S2x16x2048 := by decide

/-- (b, h, sq) with key k put back on the dropped axis is (b, h, sq, k). -/
theorem lift_keys (b : Fin 2) (h : Fin 16) (sq : Fin 2048) (k : Fin 2048) :
    reduces_keys.lift (ix3 b h sq) k = ix4 b h sq k := by
  funext c; apply Fin.ext
  fin_cases c <;> rfl

/-- The maximum over the 2048 keys of row (b, h, sq) of the scores, folded from −∞. -/
theorem rowmax (x0 : TX) (x1 : TW) (x2 : TB) (x3 : TW) (x4 : TB) (b : Fin 2) (h : Fin 16) (sq : Fin 2048) :
    val_main_v22 (F := Ideal) x0 x1 x2 x3 x4 (ix3 b h sq)
      = rowMax (scoreR (head (cur3 x0) (cur2 x1) (cur1 x2) b h sq) (head (cur3 x0) (cur2 x3) (cur1 x4) b h)) := by
  have hf : (val_main_v21 (F := Ideal) x0 x1 x2 x3 x4 ∘ reduces_keys.lift (ix3 b h sq))
      = fun k : Fin 2048 => scoreR (head (cur3 x0) (cur2 x1) (cur1 x2) b h sq) (head (cur3 x0) (cur2 x3) (cur1 x4) b h) k :=
    funext fun k => (congrArg (val_main_v21 (F := Ideal) x0 x1 x2 x3 x4) (lift_keys b h sq k)).trans (score x0 x1 x2 x3 x4 b h sq k)
  unfold val_main_v22
  refine (Host.reduce_eq_fold_single FloatOps.maximumf _ _ reducesTo_S2x16x2048x2048_S2x16x2048_d3 reduces_keys h_S_ (ix3 b h sq)).trans ?_
  exact congrArg (fun f : Fin 2048 → EReal => Finset.univ.fold max negInf f) hf

/-- The reference takes the maximum with −∞ once more. -/
theorem rowmax' (x0 : TX) (x1 : TW) (x2 : TB) (x3 : TW) (x4 : TB) (b : Fin 2) (h : Fin 16) (sq : Fin 2048) :
    val_main_v24 (F := Ideal) x0 x1 x2 x3 x4 (ix3 b h sq)
      = max negInf (rowMax (scoreR (head (cur3 x0) (cur2 x1) (cur1 x2) b h sq) (head (cur3 x0) (cur2 x3) (cur1 x4) b h))) := by
  rw [val_main_v24_apply, val_main_v23_apply, val_main_cst_1_apply, rowmax]
  simp only [Ideal.maximumf_def, Ideal.ofBits_def]
  rfl

/-! ## Exponentials, their row sum, the quotients -/

/-- A per-row value repeated along the key axis: entry (b, h, sq, sk) reads (b, h, sq). -/
theorem idx_row (b : Fin 2) (h : Fin 16) (sq sk : Fin 2048) : idx_main_v25 (idx_main_v26 (ix4 b h sq sk)) = ix3 b h sq :=
  funext fun a => Fin.ext (by match a with | ⟨0, _⟩ => rfl | ⟨1, _⟩ => rfl | ⟨2, _⟩ => rfl)

theorem expo (x0 : TX) (x1 : TW) (x2 : TB) (x3 : TW) (x4 : TB) (b : Fin 2) (h : Fin 16) (sq sk : Fin 2048) :
    val_main_v28 (F := Ideal) x0 x1 x2 x3 x4 (ix4 b h sq sk)
      = expR (head (cur3 x0) (cur2 x1) (cur1 x2) b h sq) (head (cur3 x0) (cur2 x3) (cur1 x4) b h) sk := by
  rw [val_main_v28_apply, val_main_v27_apply, val_main_v26_apply, val_main_v25_apply, idx_row, rowmax', score]
  simp only [Ideal.subf_def, Ideal.hostUnary_exp_def]
  rfl

theorem idx_sum (b : Fin 2) (h : Fin 16) (sq : Fin 2048) (k : Fin 2048) : idx_main_v29 (ix3 b h sq) k = ix4 b h sq k :=
  funext fun a => Fin.ext (by match a with | ⟨0, _⟩ => rfl | ⟨1, _⟩ => rfl | ⟨2, _⟩ => rfl | ⟨3, _⟩ => rfl)

theorem rowsum (x0 : TX) (x1 : TW) (x2 : TB) (x3 : TW) (x4 : TB) (b : Fin 2) (h : Fin 16) (sq : Fin 2048) :
    val_main_v29 (F := Ideal) x0 x1 x2 x3 x4 (ix3 b h sq)
      = 0 + ∑ sk : Fin 2048, expR (head (cur3 x0) (cur2 x1) (cur1 x2) b h sq) (head (cur3 x0) (cur2 x3) (cur1 x4) b h) sk := by
  rw [val_main_v29_apply, val_main_cst_2_apply]
  simp only [idx_sum, expo, Ideal.ofBits_def, Ideal.ofBits_zero_f32]

theorem quot (x0 : TX) (x1 : TW) (x2 : TB) (x3 : TW) (x4 : TB) (b : Fin 2) (h : Fin 16) (sq sk : Fin 2048) :
    val_main_v32 (F := Ideal) x0 x1 x2 x3 x4 (ix4 b h sq sk)
      = Ideal.div (expR (head (cur3 x0) (cur2 x1) (cur1 x2) b h sq) (head (cur3 x0) (cur2 x3) (cur1 x4) b h) sk)
          (0 + ∑ sk' : Fin 2048, expR (head (cur3 x0) (cur2 x1) (cur1 x2) b h sq) (head (cur3 x0) (cur2 x3) (cur1 x4) b h) sk') := by
  rw [val_main_v32_apply, val_main_v31_apply, val_main_v30_apply,
    show idx_main_v30 (idx_main_v31 (ix4 b h sq sk)) = ix3 b h sq from idx_row b h sq sk, rowsum, expo]
  rfl

/-! ## The contraction with the values, the merge, the output layer -/

theorem lidx_pv (b : Fin 2) (h : Fin 16) (sq : Fin 2048) (j : Fin 64) (k : Fin 2048) : lidx_main_v33 (ix4 b h sq j) k = ix4 b h sq k :=
  funext fun a => Fin.ext (by match a with | ⟨0, _⟩ => rfl | ⟨1, _⟩ => rfl | ⟨2, _⟩ => rfl | ⟨3, _⟩ => rfl)
theorem ridx_pv (b : Fin 2) (h : Fin 16) (sq : Fin 2048) (j : Fin 64) (k : Fin 2048) : ridx_main_v33 (ix4 b h sq j) k = ix4 b h k j :=
  funext fun a => Fin.ext (by match a with | ⟨0, _⟩ => rfl | ⟨1, _⟩ => rfl | ⟨2, _⟩ => rfl | ⟨3, _⟩ => rfl)

/-- Entry (b, h, sq, j) of the attention output: the quotients of row sq against column j of the values. -/
theorem pv (x0 : TX) (x1 : TW) (x2 : TB) (x3 : TW) (x4 : TB) (x5 : TW) (x6 : TB) (b : Fin 2) (h : Fin 16) (sq : Fin 2048) (j : Fin 64) :
    val_main_v33 (F := Ideal) x0 x1 x2 x3 x4 x5 x6 (ix4 b h sq j)
      = attnR (head (cur3 x0) (cur2 x1) (cur1 x2) b h sq) (head (cur3 x0) (cur2 x3) (cur1 x4) b h)
          (head (cur3 x0) (cur2 x5) (cur1 x6) b h) j := by
  rw [val_main_v33_apply]
  simp only [lidx_pv, ridx_pv, quot, head_v]
  rfl

/-- Moving the head axis back inward and fusing 16 heads of 64 into 1024 lanes: lane e reads coordinate e mod 64 of head e / 64. -/
theorem idx_merge (b : Fin 2) (s : Fin 2048) (e : Fin 1024) :
    idx_main_v34 (idx_main_v35 (ix3 b s e)) = ix4 b (headOf e) s (offOf e) :=
  funext fun a => Fin.ext (by
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)

theorem merged (x0 : TX) (x1 : TW) (x2 : TB) (x3 : TW) (x4 : TB) (x5 : TW) (x6 : TB) (b : Fin 2) (s : Fin 2048) (e : Fin 1024) :
    val_main_v35 (F := Ideal) x0 x1 x2 x3 x4 x5 x6 (ix3 b s e)
      = mergedR (cur3 x0) (cur2 x1) (cur2 x3) (cur2 x5) (cur1 x2) (cur1 x4) (cur1 x6) b s e := by
  rw [val_main_v35_apply, val_main_v34_apply, idx_merge, pv]
  rfl

/-- The reference program's result at (b, s, e) is the reference form of the layer there. -/
theorem ref_eq (x0 : TX) (x1 : TW) (x2 : TB) (x3 : TW) (x4 : TB) (x5 : TW) (x6 : TB) (x7 : TW) (x8 : TB)
    (b : Fin 2) (s : Fin 2048) (e : Fin 1024) :
    val_main_v39 (F := Ideal) x0 x1 x2 x3 x4 x5 x6 x7 x8 (ix3 b s e)
      = Cert.Attn.ref (cur3 x0) (cur2 x1) (cur2 x3) (cur2 x5) (cur2 x7) (cur1 x2) (cur1 x4) (cur1 x6) (cur1 x8) b s e := by
  rw [val_main_v39_apply, val_main_v36_apply, val_main_v38_apply, val_main_v37_apply,
    show idx_main_v37 (idx_main_v38 (ix3 b s e)) = ix1 e from idx_bias b s e]
  simp only [show ∀ k, lidx_main_v36 (ix3 b s e) k = ix3 b s k from lidx_lin b s e,
    show ∀ k, ridx_main_v36 (ix3 b s e) k = ix2 e k from ridx_lin b s e, merged, Ideal.addf_def]
  rfl

end Cert.Attn.RefSide

end
-- ==== Proof.AttnAlgebra.lean ====
/-
  For real entries the kernel form of one attention head equals the reference form, and hence so do the two layers.

  Write the entries of q, k, v as real numbers. The float words are the reals 1/8 and 64 and the bottom element, and
  sqrt 64 = 8, so both score rows are the coercion of ONE row of reals: (q·(1/8))·k summed equals (q·k summed)·(1/8),
  a factor moving across a finite sum of reals. The maximum of a nonempty row of reals, folded from the bottom element,
  is a real m (and max ⊥ m = m), so both rows of exponentials are the coercion of the positive reals exp (score − m).
  Their sum D is a positive real, 0 + D = D, and dividing by the nonzero real D is multiplying by 1/D, which moves across
  the finite sum ∑ exp · v. A linear layer of real rows with real weights and bias is real, so the heads are real and the
  merged rows of the two forms agree entry by entry; the output layer is applied to equal rows.
-/
import proofs.«169357_j53094385713646_2_alg».proof.Proof.Spec

noncomputable section

namespace Cert.Attn

open Idealize.ShloMosaic

/-! ## Real entries are closed under sums and products -/

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => rw [Finset.sum_empty]; exact ⟨0, rfl⟩
  | insert a s ha ih =>
    rw [Finset.sum_insert ha]
    exact (h a (Finset.mem_insert_self a s)).add (ih fun i hi => h i (Finset.mem_insert_of_mem hi))

/-- A linear layer of a real row with real weights and a real bias is real. -/
theorem isReal_lin (row : Fin 1024 → EReal) (w : Fin 1024 → Fin 1024 → EReal) (b : Fin 1024 → EReal)
    (hr : ∀ d, IsReal (row d)) (hw : ∀ e d, IsReal (w e d)) (hb : ∀ e, IsReal (b e)) (e : Fin 1024) :
    IsReal (lin row w b e) := by
  unfold lin
  exact (isReal_sum _ _ fun d _ => (hr d).mul (hw e d)).add (hb e)

/-! ## The coercion of a finite sum of reals -/

theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ## The three float words -/

theorem c8_eq : c8 = (((1 : ℝ) / 8 : ℝ) : EReal) := by
  simp [c8, Ideal.ofBits, Ideal.ieee, -EReal.coe_mul]; norm_num

theorem c64_eq : c64 = ((64 : ℝ) : EReal) := by
  simp [c64, Ideal.ofBits, Ideal.ieee, -EReal.coe_mul]; norm_num

theorem negInf_eq : negInf = ⊥ := by
  simp [negInf, Ideal.ofBits, Ideal.ieee]

theorem sqrt_c64 : Ideal.sqrt c64 = ((8 : ℝ) : EReal) := by
  rw [c64_eq, Ideal.sqrt_coe, if_neg (by norm_num)]
  congr 1
  rw [show (64 : ℝ) = 8 ^ 2 by norm_num, Real.sqrt_sq (by norm_num)]

/-! ## The two score rows are one row of reals -/

/-- The scaled score of key sk against the query, as a real number. -/
def sReal (qr : Fin 64 → ℝ) (kr : Fin 2048 → Fin 64 → ℝ) (sk : Fin 2048) : ℝ := ∑ j : Fin 64, qr j * (1 / 8) * kr sk j

theorem scoreK_coe (qr : Fin 64 → ℝ) (kr : Fin 2048 → Fin 64 → ℝ) :
    scoreK (fun j => (qr j : EReal)) (fun s j => (kr s j : EReal)) = fun sk => (sReal qr kr sk : EReal) := by
  funext sk
  unfold scoreK sReal
  rw [c8_eq]
  simp only [← EReal.coe_mul, ← coe_sum]

theorem scoreR_coe (qr : Fin 64 → ℝ) (kr : Fin 2048 → Fin 64 → ℝ) :
    scoreR (fun j => (qr j : EReal)) (fun s j => (kr s j : EReal)) = fun sk => (sReal qr kr sk : EReal) := by
  funext sk
  unfold scoreR sReal
  rw [sqrt_c64, Ideal.div_coe (by norm_num : (8 : ℝ) ≠ 0)]
  simp only [← EReal.coe_mul, ← coe_sum]
  congr 1
  rw [Finset.sum_mul]
  exact Finset.sum_congr rfl fun j _ => by ring

/-! ## The maximum of a nonempty row of reals is real -/

theorem fold_max_coe {ι : Type*} (s : Finset ι) (f : ι → ℝ) :
    s.Nonempty → ∃ m : ℝ, s.fold max (⊥ : EReal) (fun i => (f i : EReal)) = (m : EReal) := by
  classical
  induction s using Finset.induction_on with
  | empty => intro hs; exact absurd hs Finset.not_nonempty_empty
  | insert a s ha ih =>
    intro _
    rw [Finset.fold_insert ha]
    rcases s.eq_empty_or_nonempty with rfl | hne
    · exact ⟨f a, by rw [Finset.fold_empty, max_bot_right]⟩
    · obtain ⟨m, hm⟩ := ih hne
      exact ⟨max (f a) m, by rw [hm]; exact (EReal.coe_strictMono.monotone.map_max).symm⟩

theorem rowMax_coe (f : Fin 2048 → ℝ) : ∃ m : ℝ, rowMax (fun sk => (f sk : EReal)) = (m : EReal) := by
  unfold rowMax
  rw [negInf_eq]
  exact fold_max_coe Finset.univ f Finset.univ_nonempty

/-! ## A nonzero real divisor moves across a finite sum of reals -/

theorem div_sum_eq_sum_div {ι : Type*} (s : Finset ι) (E V : ι → ℝ) (hD : (∑ i ∈ s, E i) ≠ 0) :
    Ideal.div (∑ i ∈ s, (E i : EReal) * (V i : EReal)) (∑ i ∈ s, (E i : EReal))
      = ∑ i ∈ s, Ideal.div (E i : EReal) (0 + ∑ i' ∈ s, (E i' : EReal)) * (V i : EReal) := by
  simp only [zero_add, ← EReal.coe_mul, ← coe_sum]
  simp only [Ideal.div_coe hD, ← EReal.coe_mul, ← coe_sum]
  congr 1
  rw [Finset.sum_mul]
  exact Finset.sum_congr rfl fun i _ => by ring

/-! ## One head -/

theorem attnK_eq_attnR (q : Fin 64 → EReal) (k v : Fin 2048 → Fin 64 → EReal) (hq : ∀ j, IsReal (q j))
    (hk : ∀ s j, IsReal (k s j)) (hv : ∀ s j, IsReal (v s j)) (j : Fin 64) : attnK q k v j = attnR q k v j := by
  choose qr hqr using hq
  choose kr hkr using hk
  choose vr hvr using hv
  obtain rfl : q = fun j => (qr j : EReal) := funext hqr
  obtain rfl : k = fun s j => (kr s j : EReal) := funext fun s => funext (hkr s)
  obtain rfl : v = fun s j => (vr s j : EReal) := funext fun s => funext (hvr s)
  obtain ⟨m, hm⟩ := rowMax_coe (sReal qr kr)
  have hEK : expK (fun j => (qr j : EReal)) (fun s j => (kr s j : EReal))
      = fun sk => ((Real.exp (sReal qr kr sk - m) : ℝ) : EReal) := by
    funext sk
    unfold expK
    rw [scoreK_coe, hm, ← EReal.coe_sub, Ideal.exp_coe]
  have hER : expR (fun j => (qr j : EReal)) (fun s j => (kr s j : EReal))
      = fun sk => ((Real.exp (sReal qr kr sk - m) : ℝ) : EReal) := by
    funext sk
    unfold expR
    rw [scoreR_coe, negInf_eq, max_bot_left, hm, ← EReal.coe_sub, Ideal.exp_coe]
  unfold attnK attnR
  simp only [hEK, hER]
  exact div_sum_eq_sum_div Finset.univ _ (fun sk => vr sk j)
    (ne_of_gt (Finset.sum_pos (fun sk _ => Real.exp_pos _) Finset.univ_nonempty))

/-! ## The layer -/

theorem kern_eq_ref (x : Fin 2 → Fin 2048 → Fin 1024 → EReal) (wq wk wv wo : Fin 1024 → Fin 1024 → EReal)
    (bq bk bv bo : Fin 1024 → EReal) (hx : ∀ b s d, IsReal (x b s d)) (hwq : ∀ e d, IsReal (wq e d))
    (hwk : ∀ e d, IsReal (wk e d)) (hwv : ∀ e d, IsReal (wv e d)) (hbq : ∀ e, IsReal (bq e)) (hbk : ∀ e, IsReal (bk e))
    (hbv : ∀ e, IsReal (bv e)) (b : Fin 2) (s : Fin 2048) (e : Fin 1024) :
    kern x wq wk wv wo bq bk bv bo b s e = ref x wq wk wv wo bq bk bv bo b s e := by
  have hrow : mergedK x wq wk wv bq bk bv b s = mergedR x wq wk wv bq bk bv b s := by
    funext e'
    unfold mergedK mergedR
    exact attnK_eq_attnR _ _ _
      (fun j => isReal_lin _ _ _ (hx b s) hwq hbq _)
      (fun s' j => isReal_lin _ _ _ (hx b s') hwk hbk _)
      (fun s' j => isReal_lin _ _ _ (hx b s') hwv hbv _) _
  unfold kern ref
  rw [hrow]

end Cert.Attn

end
-- ==== Proof.FiniteInputs.lean ====
/-
  The precondition makes every entry of every argument a real number.

  The precondition is the conjunction, over the nine argument arrays, of "every entry x has |x| < +∞", each written as a
  reduction by "and" of the array of comparison bits from the bit 1, the nine results joined by "and", and it says the
  result is 1. A conjunction of bits is 1 exactly when both are; a reduction by "and" over all axes that is 1 met a 1 at
  every index; the comparison bit at an index is 1 exactly when max x (−x) < ⊤ (the float word 0x7F800000 is ⊤). On the
  extended reals max x (−x) < ⊤ excludes x = ⊤ and x = ⊥ (−⊥ = ⊤), so x is a real number.
-/
import proofs.«169357_j53094385713646_2_alg».proof.Defs
import proofs.«169357_j53094385713646_2_alg».proof.Proof.Gen.Pre_finite_inputs
import proofs.«169357_j53094385713646_2_alg».proof.Proof.Spec
import Idealize.ShloMosaic.Lib.ReduceAll

noncomputable section

namespace Cert.Attn.Finite

open Idealize.ShloMosaic Cert.Pre_finite_inputs

/-- The shape of a scalar has one index. -/
instance : Subsingleton S_.Idx := ⟨fun a b => funext fun d => d.elim0⟩

/-- The float word 0x7F800000 is +∞. -/
theorem inf_f32 : Ideal.ofBits .f32 0x7F800000#32 = (⊤ : EReal) := by
  simp [Ideal.ofBits, Ideal.ieee]

/-- An extended real whose absolute value is below +∞ is a real number. -/
theorem isReal_of_abs_lt_top (x : EReal) (h : max x (-x) < ⊤) : Cert.Attn.IsReal x := by
  induction x using EReal.rec with
  | bot => exact absurd h (by rw [EReal.neg_bot, max_eq_right bot_le]; exact lt_irrefl _)
  | coe r => exact ⟨r, rfl⟩
  | top => exact absurd h (by rw [max_eq_left le_top]; exact lt_irrefl _)

/-- The comparison bit "|x| < +∞" being 1 says x is a real number. -/
theorem isReal_of_cmp (x : EReal) (h : Ideal.cmp .olt (max x (-x)) (Ideal.ofBits .f32 0x7F800000#32) = 1#1) :
    Cert.Attn.IsReal x := by
  rw [inf_f32] at h
  apply isReal_of_abs_lt_top
  unfold Ideal.cmp at h
  by_contra hn
  simp [hn] at h

/-- One argument array: the reduction by "and" over all axes of its comparison bits is 1, so every entry is real. -/
theorem allReal_of_all {S : Shape} {axes : List (Fin S.rank)} (x : FVec Ideal S .f32) (dims : Fin S_.rank → Fin S.rank)
    (hb : S_.BroadcastsInDim S dims) (hr : S.ReducesTo axes S_) (hu : 0 < S_.numel)
    (e : Host.reduce IntOp.andi (cmpf .olt (Host.absf (F := Ideal) x) (broadcastInDim S dims hb (constant (F := Ideal) S_ .f32 0x7F800000#32)))
        (constantI S_ 1 1#1) hr hu ValueIdx.ix0 = 1#1) (i : S.Idx) : Cert.Attn.IsReal (x i) :=
  isReal_of_cmp (x i) (Host.reduce_andi_all _ _ hr hu _ e i)

/-- The precondition decoded: every entry of each of the nine arguments is a real number. -/
theorem allReal_of_pre [hPre : Cert.Pre_finite_inputs.Facts]
    (a0 : (⟨S2x2048x1024, .f32⟩ : BufTy).Contents (Elt Ideal))
    (a1 : (⟨S1024x1024, .f32⟩ : BufTy).Contents (Elt Ideal)) (a2 : (⟨S1024, .f32⟩ : BufTy).Contents (Elt Ideal))
    (a3 : (⟨S1024x1024, .f32⟩ : BufTy).Contents (Elt Ideal)) (a4 : (⟨S1024, .f32⟩ : BufTy).Contents (Elt Ideal))
    (a5 : (⟨S1024x1024, .f32⟩ : BufTy).Contents (Elt Ideal)) (a6 : (⟨S1024, .f32⟩ : BufTy).Contents (Elt Ideal))
    (a7 : (⟨S1024x1024, .f32⟩ : BufTy).Contents (Elt Ideal)) (a8 : (⟨S1024, .f32⟩ : BufTy).Contents (Elt Ideal))
    (h : Cert.Pre_finite_inputs.fn (F := Ideal) a0 a1 a2 a3 a4 a5 a6 a7 a8 = fun _ => 1#1) :
    (∀ i, Cert.Attn.IsReal (a0 i)) ∧ (∀ i, Cert.Attn.IsReal (a1 i)) ∧ (∀ i, Cert.Attn.IsReal (a2 i))
      ∧ (∀ i, Cert.Attn.IsReal (a3 i)) ∧ (∀ i, Cert.Attn.IsReal (a4 i)) ∧ (∀ i, Cert.Attn.IsReal (a5 i))
      ∧ (∀ i, Cert.Attn.IsReal (a6 i)) ∧ (∀ i, Cert.Attn.IsReal (a7 i)) ∧ (∀ i, Cert.Attn.IsReal (a8 i)) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨e0, e1⟩, e2⟩, e3⟩, e4⟩, e5⟩, e6⟩, e7⟩, e8⟩ := e
  exact ⟨allReal_of_all a0 _ _ _ _ e0, allReal_of_all a1 _ _ _ _ e1, allReal_of_all a2 _ _ _ _ e2,
    allReal_of_all a3 _ _ _ _ e3, allReal_of_all a4 _ _ _ _ e4, allReal_of_all a5 _ _ _ _ e5,
    allReal_of_all a6 _ _ _ _ e6, allReal_of_all a7 _ _ _ _ e7, allReal_of_all a8 _ _ _ _ e8⟩

end Cert.Attn.Finite

end
-- ==== Proof.lean ====
/-
  Multi-head attention (2 × 2048 tokens, 16 heads of width 64) as three kernel regions joined by host layout
  operations, against the plain reference. Both programs run to the end, fault nowhere and leave their nine argument
  arrays unchanged; and at the exact reading of floats as extended reals, from memories agreeing on the arguments, both
  return the same array.

  The kernel program's run is followed boundary by boundary: host operations, the fused projection region, the split
  into heads, the attention region, the merge of heads, the output projection region, a last reshape. Each region's
  output array is one whole-array function of its input arrays, because the blocks its grid points write back tile the
  array; each host operation is read at an index. The returned array is then, entry by entry, the layer in the kernel's
  arrangement: the scale 1/8 applied to the queries before the contraction, and the division by each row's sum of
  exponentials applied after the contraction with the values. The reference's run, read one operation at a time, is the
  layer in the other arrangement: the contraction divided by sqrt 64, and the exponentials divided by their sum before
  the contraction with the values. Under the precondition every argument entry is a real number, and for real entries
  the two arrangements agree: 1/8 = 1/sqrt 64 moves across a finite sum of reals, the row maximum of reals is a real,
  the sum of exponentials is a positive real, and a nonzero real divisor moves across a finite sum of reals.
-/
import proofs.«169357_j53094385713646_2_alg».proof.Defs
import proofs.«169357_j53094385713646_2_alg».proof.Proof.Gen.Kernel
import proofs.«169357_j53094385713646_2_alg».proof.Proof.Gen.KernelIdeal
import proofs.«169357_j53094385713646_2_alg».proof.Proof.Gen.ReferenceIdeal
import proofs.«169357_j53094385713646_2_alg».proof.Proof.Gen.ReferenceIdeal.Run
import proofs.«169357_j53094385713646_2_alg».proof.Proof.Gen.ReferenceIdeal.Read
import proofs.«169357_j53094385713646_2_alg».proof.Proof.Gen.Pre_finite_inputs
import proofs.«169357_j53094385713646_2_alg».proof.Proof.BitsFrame
import proofs.«169357_j53094385713646_2_alg».proof.Proof.IdealFrame
import proofs.«169357_j53094385713646_2_alg».proof.Proof.IdealKernelValue
import proofs.«169357_j53094385713646_2_alg».proof.Proof.RefIsSpec
import proofs.«169357_j53094385713646_2_alg».proof.Proof.AttnAlgebra
import proofs.«169357_j53094385713646_2_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end, nothing faulting, its arguments unchanged. -/
theorem frame_k : Cert.frame_Kernel :=
  fun m ρ _ => Cert.Kernel.Hand.frame (F := Bits) m ρ

/-- The same program read at the extended reals. -/
theorem frame_ki : Cert.frame_KernelIdeal :=
  fun m ρ _ => Cert.KernelIdeal.Hand.frame (F := Ideal) m ρ

/-- The reference is a line of host operations: its run, with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- The idealized kernel program is the printed program's own text read at the extended reals: nothing was rewritten. -/
theorem preserves : Cert.preserves_Kernel_KernelIdeal := trivial

/-- Both idealized programs return the same array: the kernel's arrangement of the layer and the reference's agree on
    real entries. -/
theorem algebraic : Cert.algebraic_KernelIdeal_ReferenceIdeal := by
  intro m ρ m' ρ' hpre hagree
  refine ⟨fun c => Cert.KernelIdeal.Hand.W7 m ρ c (Proc.devRef .tc Cert.KernelIdeal.main_v26), ?_, ?_⟩
  · exact (θ_run Cert.KernelIdeal.defs _ _).mono (fun r h c => ⟨h c _ (Cert.KernelIdeal.Hand.mem_uc Cert.KernelIdeal.main_v26 (by decide)),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c),
      (h c _ (Cert.KernelIdeal.Hand.mem_uc Cert.KernelIdeal.main_arg7 (by decide))).trans (Cert.KernelIdeal.Hand.W7_main_arg7 m ρ c),
      (h c _ (Cert.KernelIdeal.Hand.mem_uc Cert.KernelIdeal.main_arg8 (by decide))).trans (Cert.KernelIdeal.Hand.W7_main_arg8 m ρ c)⟩)
      (Cert.KernelIdeal.Hand.run (F := Ideal) m ρ)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v39_eq]
    obtain ⟨e0, e1, e2, e3, e4, e5, e6, e7, e8⟩ := hagree c
    rw [e0, e1, e2, e3, e4, e5, e6, e7, e8]
    obtain ⟨r0, r1, r2, r3, r4, r5, r6, r7, r8⟩ := Cert.Attn.Finite.allReal_of_pre _ _ _ _ _ _ _ _ _ (hpre c)
    funext i
    obtain ⟨b, s, e, rfl⟩ : ∃ (b : Fin 2) (s : Fin 2048) (e : Fin 1024), i = ix3 b s e := ⟨i 0, i 1, i 2, eq_ix3 i⟩
    rw [Cert.Attn.RefSide.ref_eq]
    refine (Cert.Attn.kern_eq_ref _ _ _ _ _ _ _ _ _ (fun b s d => r0 _) (fun e d => r1 _) (fun e d => r3 _) (fun e d => r5 _)
      (fun e => r2 _) (fun e => r4 _) (fun e => r6 _) b s e).symm.trans ?_
    exact (Cert.KernelIdeal.Hand.out_entry m ρ c b s e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
